-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x64 : S_.BroadcastsInDim S256x64 (![] : Fin 0 → Fin S256x64.rank)
  reducesTo_S256x64_S_d0_1 : S256x64.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S256x64 .f32) (main_arg3 : FVec F S128x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S1024x1024 : Shape := ⟨2, ![1024, 1024]⟩
abbrev S1024x1 : Shape := ⟨2, ![1024, 1]⟩
abbrev S1x1024 : Shape := ⟨2, ![1, 1024]⟩
abbrev S1024x64 : Shape := ⟨2, ![1024, 64]⟩
abbrev S1024 : Shape := ⟨1, ![1024]⟩

abbrev nBuf : Space → Nat
  | .hbm => 12
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S8192x1, .f32⟩
  | .hbm, ⟨7, _⟩ => ⟨S64x1, .f32⟩
  | .hbm, ⟨8, _⟩ => ⟨S8192x1, .f32⟩
  | .hbm, ⟨9, _⟩ => ⟨S1x8192, .f32⟩
  | .hbm, ⟨10, _⟩ => ⟨S8192x64, .bf16⟩
  | .hbm, ⟨11, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1x1024, .f32⟩
  | .local _ .vmem, ⟨5, _⟩ => ⟨S1x1024, .f32⟩
  | .local _ .vmem, ⟨6, _⟩ => ⟨S8192x64, .bf16⟩
  | .local _ .vmem, ⟨7, _⟩ => ⟨S1024x64, .f32⟩
  | .local _ .vmem, ⟨8, _⟩ => ⟨S1024x64, .f32⟩
  | .local _ .vmem, ⟨9, _⟩ => ⟨S1024x1, .f32⟩
  | .local _ .vmem, ⟨10, _⟩ => ⟨S1024x1, .f32⟩
  | .local _ .vmem, ⟨11, _⟩ => ⟨S1024x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v37 : BitVec 32 := Scalar.muli arg1 c1024_i32
  v37
def k0_off1 (i : grid0.Coords) : Fin 2 → Nat :=
  let arg1 : BitVec 32 := BitVec.ofNat 32 (i 1).val
  let c1024_i32 : BitVec 32 := 1024#32
  let v37 : BitVec 32 := Scalar.muli arg1 c1024_i32
  let v38 : BitVec 32 := v37
  let v39 : Index := Scalar.indexCast v38
  let c0_17 : Index := 0#32
  ![v39.toNat, 0]
def k0_cond2 (i : grid0.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S128x1_S64x1_64_0 : S128x1.Slices ![64, 0] S64x1
  slices_S128x1_S64x1_0_0 : S128x1.Slices ![0, 0] S64x1
  shapeCasts_S8192x1_S1x8192 : S8192x1.ShapeCasts S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x64 : S1024x1.Broadcasts S1024x64
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S1024x1024_S1024x64_S1024x64_1_0_0_1_n_n_wf : DotDims.WF S1024x1024 S1024x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S8192x64.size a
  hwx0_3 : ∀ i : grid0.Coords, EltTy.bits .bf16 = 32 ∨ (Rect.block (s := S8192x64) S8192x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x64 : Shape := ⟨2, ![256, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S_ : Shape := ⟨0, ![]⟩
abbrev S1x8192 : Shape := ⟨2, ![1, 8192]⟩
abbrev S8192 : Shape := ⟨1, ![8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S8192x1, .f32⟩
  | .hbm, ⟨7, _⟩ => ⟨S64x1, .f32⟩
  | .hbm, ⟨8, _⟩ => ⟨S8192x1, .f32⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x64, .f32⟩
  | .hbm, ⟨41, _⟩ => ⟨S_, .f32⟩
  | .hbm, ⟨42, _⟩ => ⟨S8192x64, .f32⟩
  | .hbm, ⟨43, _⟩ => ⟨S8192x64, .i1⟩
  | .hbm, ⟨44, _⟩ => ⟨S_, .f32⟩
  | .hbm, ⟨45, _⟩ => ⟨S8192x64, .f32⟩
  | .hbm, ⟨46, _⟩ => ⟨S8192x64, .i1⟩
  | .hbm, ⟨47, _⟩ => ⟨S_, .f32⟩
  | .hbm, ⟨48, _⟩ => ⟨S_, .f32⟩
  | .hbm, ⟨49, _⟩ => ⟨S8192x64, .f32⟩
  | .hbm, ⟨50, _⟩ => ⟨S8192x64, .f32⟩
  | .hbm, ⟨51, _⟩ => ⟨S8192x64, .f32⟩
  | .hbm, ⟨52, _⟩ => ⟨S_, .f32⟩
  | .hbm, ⟨53, _⟩ => ⟨S8192x64, .f32⟩
  | .hbm, ⟨54, _⟩ => ⟨S8192x64, .f32⟩
  | .hbm, ⟨55, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_cst_0 : Ref sig .tc := ⟨.hbm, 44, rfl⟩
abbrev main_call2_v2 : Ref sig .tc := ⟨.hbm, 45, rfl⟩
abbrev main_call2_v3 : Ref sig .tc := ⟨.hbm, 46, rfl⟩
abbrev main_call2_cst_1 : Ref sig .tc := ⟨.hbm, 47, rfl⟩
abbrev main_call2_call0_v0 : Ref sig .tc := ⟨.hbm, 48, rfl⟩
abbrev main_call2_call0_v1 : Ref sig .tc := ⟨.hbm, 49, rfl⟩
abbrev main_call2_v4 : Ref sig .tc := ⟨.hbm, 50, rfl⟩
abbrev main_call2_v5 : Ref sig .tc := ⟨.hbm, 51, rfl⟩
abbrev main_call2_cst_2 : Ref sig .tc := ⟨.hbm, 52, rfl⟩
abbrev main_call2_v6 : Ref sig .tc := ⟨.hbm, 53, rfl⟩
abbrev main_call2_v7 : Ref sig .tc := ⟨.hbm, 54, rfl⟩
abbrev main_v29 : Ref sig .tc := ⟨.hbm, 55, rfl⟩

abbrev nD : Nat := 1
abbrev τ : Topo := Topo.v7x

variable {F : FTy → Type} [FloatOps F]

class Facts₀ : Prop where
  slices_S128x1_S64x1_64_0 : S128x1.Slices ![64, 0] S64x1
  slices_S128x1_S64x1_0_0 : S128x1.Slices ![0, 0] S64x1
  bcast_S_S8192x8192 : S_.BroadcastsInDim S8192x8192 (![] : Fin 0 → Fin S8192x8192.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KernelPieces.lean ====
/-
  What one grid point leaves in the three carried buffers and in the output block, as pure functions of the blocks it
  loads and of what the point before left. A point first resets the carried triple when it opens a row of blocks, then
  replaces the running maximum, the running denominator and the running numerator, and at the last block of the row
  stores the quotient through the exponential linear unit. Each buffer is stored whole, so what it holds afterwards is the
  payload of its last store; a load that follows a store of the same point reads that store's payload.
-/
import proofs.«176268_j36455682408927_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The rows of the projected features that block column `i 1` multiplies: 1024 rows from row `1024 * i 1`. -/
def whBlk (i : grid0.Coords) (x3 : Vec F S8192x64 .bf16) : Vec F S1024x64 .bf16 :=
  View.ld x3 (Rect.unit (s := S8192x64) (k0_off1 i) S1024x64.size (k0_off1_inb i))

/-! ## The first block of a row: the triple is reset, then updated -/

theorem first_max (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x64 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond0_0 i) (hc1 : ¬cond0_1 i)
    (x0 : Vec F S1024x1024 .f32) (x1 : Vec F S1024x1 .f32) (x2 : Vec F S1x1024 .f32) (x3 : Vec F S8192x64 .bf16) :
    sout0_A_0 c i arg2 harg2 arg3 harg3 arg4 harg4 arg5 harg5 arg6 harg6 arg7 harg7 arg8 harg8 arg9 harg9 hc0 hc1 x0 x1 x2 x3 = k0_pay2 (k0_pay8 x0 x1 x2 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread,
    View.ld_unit_zero (S := S1024x1024) hz, View.ld_unit_zero (S := S1024x1) hz, View.ld_unit_zero (S := S1x1024) hz, View.ld_unit_zero (S := S1024x64) hz]
  try rfl

theorem first_den (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x64 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond0_0 i) (hc1 : ¬cond0_1 i)
    (x0 : Vec F S1024x1024 .f32) (x1 : Vec F S1024x1 .f32) (x2 : Vec F S1x1024 .f32) (x3 : Vec F S8192x64 .bf16) :
    sout0_A_1 c i arg2 harg2 arg3 harg3 arg4 harg4 arg5 harg5 arg6 harg6 arg7 harg7 arg8 harg8 arg9 harg9 hc0 hc1 x0 x1 x2 x3 = k0_pay11 x0 x1 x2 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread,
    View.ld_unit_zero (S := S1024x1024) hz, View.ld_unit_zero (S := S1024x1) hz, View.ld_unit_zero (S := S1x1024) hz, View.ld_unit_zero (S := S1024x64) hz]
  try rfl

theorem first_num (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x64 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond0_0 i) (hc1 : ¬cond0_1 i)
    (x0 : Vec F S1024x1024 .f32) (x1 : Vec F S1024x1 .f32) (x2 : Vec F S1x1024 .f32) (x3 : Vec F S8192x64 .bf16) :
    sout0_A_2 c i arg2 harg2 arg3 harg3 arg4 harg4 arg5 harg5 arg6 harg6 arg7 harg7 arg8 harg8 arg9 harg9 hc0 hc1 x0 x1 x2 x3 = k0_pay1 (k0_pay9 x0 x1 x2 k0_pay4) (k0_pay10 x0 x1 x2 k0_pay4) (whBlk i x3) k0_pay6 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x64) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread,
    View.ld_unit_zero (S := S1024x1024) hz, View.ld_unit_zero (S := S1024x1) hz, View.ld_unit_zero (S := S1x1024) hz, View.ld_unit_zero (S := S1024x64) hz]
  try rfl

/-! ## A middle block: the triple the point before left is updated -/

theorem mid_max (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x64 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : ¬cond0_1 i)
    (x0 : Vec F S1024x1024 .f32) (x1 : Vec F S1024x1 .f32) (x2 : Vec F S1x1024 .f32) (x3 : Vec F S8192x64 .bf16) (xs0 : Vec F S1024x1 .f32) (xs1 : Vec F S1024x1 .f32) (xs2 : Vec F S1024x64 .f32) :
    sout0_B_0 c i arg2 harg2 arg3 harg3 arg4 harg4 arg5 harg5 arg6 harg6 arg7 harg7 arg8 harg8 arg9 harg9 hc0 hc1 x0 x1 x2 x3 xs0 xs1 xs2 = k0_pay2 (k0_pay8 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S1024x1) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread,
    View.ld_unit_zero (S := S1024x1024) hz, View.ld_unit_zero (S := S1024x1) hz, View.ld_unit_zero (S := S1x1024) hz, View.ld_unit_zero (S := S1024x64) hz]
  try rfl

theorem mid_den (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x64 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : ¬cond0_1 i)
    (x0 : Vec F S1024x1024 .f32) (x1 : Vec F S1024x1 .f32) (x2 : Vec F S1x1024 .f32) (x3 : Vec F S8192x64 .bf16) (xs0 : Vec F S1024x1 .f32) (xs1 : Vec F S1024x1 .f32) (xs2 : Vec F S1024x64 .f32) :
    sout0_B_1 c i arg2 harg2 arg3 harg3 arg4 harg4 arg5 harg5 arg6 harg6 arg7 harg7 arg8 harg8 arg9 harg9 hc0 hc1 x0 x1 x2 x3 xs0 xs1 xs2 = k0_pay11 x0 x1 x2 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S1024x1) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread,
    View.ld_unit_zero (S := S1024x1024) hz, View.ld_unit_zero (S := S1024x1) hz, View.ld_unit_zero (S := S1x1024) hz, View.ld_unit_zero (S := S1024x64) hz]
  try rfl

theorem mid_num (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x64 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : ¬cond0_1 i)
    (x0 : Vec F S1024x1024 .f32) (x1 : Vec F S1024x1 .f32) (x2 : Vec F S1x1024 .f32) (x3 : Vec F S8192x64 .bf16) (xs0 : Vec F S1024x1 .f32) (xs1 : Vec F S1024x1 .f32) (xs2 : Vec F S1024x64 .f32) :
    sout0_B_2 c i arg2 harg2 arg3 harg3 arg4 harg4 arg5 harg5 arg6 harg6 arg7 harg7 arg8 harg8 arg9 harg9 hc0 hc1 x0 x1 x2 x3 xs0 xs1 xs2 = k0_pay1 (k0_pay9 x0 x1 x2 xs0) (k0_pay10 x0 x1 x2 xs0) (whBlk i x3) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S1024x64) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread,
    View.ld_unit_zero (S := S1024x1024) hz, View.ld_unit_zero (S := S1024x1) hz, View.ld_unit_zero (S := S1x1024) hz, View.ld_unit_zero (S := S1024x64) hz]
  try rfl

/-! ## The last block of a row: the same update, and the output block from the updated numerator and denominator -/

theorem last_max (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x64 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i)
    (x0 : Vec F S1024x1024 .f32) (x1 : Vec F S1024x1 .f32) (x2 : Vec F S1x1024 .f32) (x3 : Vec F S8192x64 .bf16) (xs0 : Vec F S1024x1 .f32) (xs1 : Vec F S1024x1 .f32) (xs2 : Vec F S1024x64 .f32) :
    sout0_C_0 c i arg2 harg2 arg3 harg3 arg4 harg4 arg5 harg5 arg6 harg6 arg7 harg7 arg8 harg8 arg9 harg9 hc0 hc1 x0 x1 x2 x3 xs0 xs1 xs2 = k0_pay2 (k0_pay8 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x1) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread,
    View.ld_unit_zero (S := S1024x1024) hz, View.ld_unit_zero (S := S1024x1) hz, View.ld_unit_zero (S := S1x1024) hz, View.ld_unit_zero (S := S1024x64) hz]
  try rfl

theorem last_den (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x64 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i)
    (x0 : Vec F S1024x1024 .f32) (x1 : Vec F S1024x1 .f32) (x2 : Vec F S1x1024 .f32) (x3 : Vec F S8192x64 .bf16) (xs0 : Vec F S1024x1 .f32) (xs1 : Vec F S1024x1 .f32) (xs2 : Vec F S1024x64 .f32) :
    sout0_C_1 c i arg2 harg2 arg3 harg3 arg4 harg4 arg5 harg5 arg6 harg6 arg7 harg7 arg8 harg8 arg9 harg9 hc0 hc1 x0 x1 x2 x3 xs0 xs1 xs2 = k0_pay11 x0 x1 x2 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x1) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread,
    View.ld_unit_zero (S := S1024x1024) hz, View.ld_unit_zero (S := S1024x1) hz, View.ld_unit_zero (S := S1x1024) hz, View.ld_unit_zero (S := S1024x64) hz]
  try rfl

theorem last_num (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x64 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i)
    (x0 : Vec F S1024x1024 .f32) (x1 : Vec F S1024x1 .f32) (x2 : Vec F S1x1024 .f32) (x3 : Vec F S8192x64 .bf16) (xs0 : Vec F S1024x1 .f32) (xs1 : Vec F S1024x1 .f32) (xs2 : Vec F S1024x64 .f32) :
    sout0_C_2 c i arg2 harg2 arg3 harg3 arg4 harg4 arg5 harg5 arg6 harg6 arg7 harg7 arg8 harg8 arg9 harg9 hc0 hc1 x0 x1 x2 x3 xs0 xs1 xs2 = k0_pay1 (k0_pay9 x0 x1 x2 xs0) (k0_pay10 x0 x1 x2 xs0) (whBlk i x3) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x64) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread,
    View.ld_unit_zero (S := S1024x1024) hz, View.ld_unit_zero (S := S1024x1) hz, View.ld_unit_zero (S := S1x1024) hz, View.ld_unit_zero (S := S1024x64) hz]
  try rfl

theorem last_out (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x64 .bf16) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i)
    (x0 : Vec F S1024x1024 .f32) (x1 : Vec F S1024x1 .f32) (x2 : Vec F S1x1024 .f32) (x3 : Vec F S8192x64 .bf16) (xs0 : Vec F S1024x1 .f32) (xs1 : Vec F S1024x1 .f32) (xs2 : Vec F S1024x64 .f32) :
    out0_C_4 c i arg2 harg2 arg3 harg3 arg4 harg4 arg5 harg5 arg6 harg6 arg7 harg7 arg8 harg8 arg9 harg9 hc0 hc1 x0 x1 x2 x3 xs0 xs1 xs2 = k0_pay3 (k0_pay1 (k0_pay9 x0 x1 x2 xs0) (k0_pay10 x0 x1 x2 xs0) (whBlk i x3) xs2) (k0_pay11 x0 x1 x2 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x64) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread,
    View.ld_unit_zero (S := S1024x1024) hz, View.ld_unit_zero (S := S1024x1) hz, View.ld_unit_zero (S := S1x1024) hz, View.ld_unit_zero (S := S1024x64) hz]
  try rfl

end Cert.KernelIdeal.Pieces

end
-- ==== Proof.KernelPoints.lean ====
/-
  The carried triple after a grid point, by the kind of the point: a point that opens a row of blocks leaves the update of
  the reset triple; every other point leaves the update of what the point before it left.
-/
import proofs.«176268_j36455682408927_2_alg».proof.Proof.KernelPieces

set_option maxRecDepth 16384

noncomputable section

open Idealize.ShloMosaic Idealize.ShloMosaic.TcCoe Idealize.SL.Sem

namespace Cert.KernelIdeal.Points

open Cert.KernelIdeal Cert.KernelIdeal.Gen

variable {F : FTy → Type} [FloatOps F]
variable (m : (ℓ : Loc nD τ sig) → Buf (Elt F) ℓ)

/-- At the first block of a row the running maximum, denominator and numerator are the update of minus infinity, zero
    and zero by the block. -/
theorem first_point (c : Dev nD) (t : Fin cfg0.N) (h0 : t.val % 8 = 0) :
    (outsAt0 m c t.val t.isLt).2.1 = k0_pay2 (k0_pay8 (iblk m c 0 t) (iblk m c 1 t) (iblk m c 2 t) k0_pay4)
    ∧ (outsAt0 m c t.val t.isLt).2.2.1 = k0_pay11 (iblk m c 0 t) (iblk m c 1 t) (iblk m c 2 t) k0_pay4 k0_pay5
    ∧ (outsAt0 m c t.val t.isLt).2.2.2
        = k0_pay1 (k0_pay9 (iblk m c 0 t) (iblk m c 1 t) (iblk m c 2 t) k0_pay4) (k0_pay10 (iblk m c 0 t) (iblk m c 1 t) (iblk m c 2 t) k0_pay4)
            (Pieces.whBlk (grid0.coords t) (iblk m c 3 t)) k0_pay6 := by
  have h1 : ¬t.val % 8 = 7 := by omega
  rw [outsAt0_A m c t h0 h1]
  dsimp only
  refine ⟨?_, ?_, ?_⟩
  · exact Pieces.first_max c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)
  · exact Pieces.first_den c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)
  · exact Pieces.first_num c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-- At every later block of a row they are the update, by the block, of what the point before left. -/
theorem later_point (c : Dev nD) (t : Fin cfg0.N) (h0 : ¬t.val % 8 = 0) :
    (outsAt0 m c t.val t.isLt).2.1
        = k0_pay2 (k0_pay8 (iblk m c 0 t) (iblk m c 1 t) (iblk m c 2 t) (outsAt0 m c (t.val - 1) (Nat.lt_of_le_of_lt (Nat.sub_le _ _) t.isLt)).2.1)
    ∧ (outsAt0 m c t.val t.isLt).2.2.1
        = k0_pay11 (iblk m c 0 t) (iblk m c 1 t) (iblk m c 2 t) (outsAt0 m c (t.val - 1) (Nat.lt_of_le_of_lt (Nat.sub_le _ _) t.isLt)).2.1
            (outsAt0 m c (t.val - 1) (Nat.lt_of_le_of_lt (Nat.sub_le _ _) t.isLt)).2.2.1
    ∧ (outsAt0 m c t.val t.isLt).2.2.2
        = k0_pay1 (k0_pay9 (iblk m c 0 t) (iblk m c 1 t) (iblk m c 2 t) (outsAt0 m c (t.val - 1) (Nat.lt_of_le_of_lt (Nat.sub_le _ _) t.isLt)).2.1)
            (k0_pay10 (iblk m c 0 t) (iblk m c 1 t) (iblk m c 2 t) (outsAt0 m c (t.val - 1) (Nat.lt_of_le_of_lt (Nat.sub_le _ _) t.isLt)).2.1)
            (Pieces.whBlk (grid0.coords t) (iblk m c 3 t)) (outsAt0 m c (t.val - 1) (Nat.lt_of_le_of_lt (Nat.sub_le _ _) t.isLt)).2.2.2 := by
  by_cases h1 : t.val % 8 = 7
  · rw [outsAt0_C m c t h0 h1]
    dsimp only
    refine ⟨?_, ?_, ?_⟩
    · exact Pieces.last_max c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · exact Pieces.last_den c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · exact Pieces.last_num c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    refine ⟨?_, ?_, ?_⟩
    · exact Pieces.mid_max c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · exact Pieces.mid_den c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    · exact Pieces.mid_num c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Points

end
-- ==== Proof.HostProj.lean ====
/-
  The three projections both programs take on the host before anything else: the projected features `h · W` and the two
  columns of attention logits, the features times the upper and the lower half of the attention vector.
-/
import proofs.«176268_j36455682408927_2_alg».proof.Proof.Gen.KernelIdeal
import Idealize.ShloMosaic.PureOps.Ideal

noncomputable section

namespace Cert.KernelIdeal.Proj

open Idealize.ShloMosaic Cert.KernelIdeal
open Cert.KernelIdeal.Facts₀ Cert.KernelIdeal.Facts

/-- The projected features `h · W`. -/
def wh (h : FVec Ideal S8192x256 .f32) (W : FVec Ideal S256x64 .f32) : FVec Ideal S8192x64 .f32 :=
  Host.dotGeneral dot_S8192x256_S256x64_S8192x64_1_0_0_1_n_n none h W

/-- The logit of a node as a source: its features times rows 64 to 127 of the attention vector. -/
def w1 (h : FVec Ideal S8192x256 .f32) (W : FVec Ideal S256x64 .f32) (a : FVec Ideal S128x1 .f32) : FVec Ideal S8192x1 .f32 :=
  Host.dotGeneral dot_S8192x64_S64x1_S8192x1_1_0_0_1_n_n none (wh h W) (extractStridedSlice S64x1 ![64, 0] a slices_S128x1_S64x1_64_0)

/-- The logit of a node as a neighbour: its features times rows 0 to 63 of the attention vector. -/
def w2 (h : FVec Ideal S8192x256 .f32) (W : FVec Ideal S256x64 .f32) (a : FVec Ideal S128x1 .f32) : FVec Ideal S8192x1 .f32 :=
  Host.dotGeneral dot_S8192x64_S64x1_S8192x1_1_0_0_1_n_n none (wh h W) (extractStridedSlice S64x1 ![0, 0] a slices_S128x1_S64x1_0_0)

end Cert.KernelIdeal.Proj

end
-- ==== Proof.KernelHost.lean ====
/-
  What the region finds in the arrays its windows stage: the adjacency matrix as given, the column of source logits, the
  column of neighbour logits laid out as a row, and the projected features (a change of float format is the identity on
  the extended reals).
-/
import proofs.«176268_j36455682408927_2_alg».proof.Proof.Gen.KernelIdeal.Frame
import proofs.«176268_j36455682408927_2_alg».proof.Proof.HostProj
import Idealize.ShloMosaic.Lib.Pipeline.Value
import Idealize.ShloMosaic.Lib.StableHlo.Run

noncomputable section

open Idealize.ShloMosaic Idealize.ShloMosaic.TcCoe Idealize.SL.Sem

namespace Cert.KernelIdeal.HostSide

open Cert.KernelIdeal Cert.KernelIdeal.Gen
open Cert.KernelIdeal.Facts₀ Cert.KernelIdeal.Facts

variable (m : (ℓ : Loc nD τ sig) → Buf (Elt Ideal) ℓ)

/-- The source logits, as the region finds them. -/
theorem V_w1 (c : Dev nD) : (V m c main_v2 : S8192x1.Idx → EReal)
    = Proj.w1 (m ((c : Thread nD τ).loc main_arg0)) (m ((c : Thread nD τ).loc main_arg2)) (m ((c : Thread nD τ).loc main_arg3)) := by
  dsimp only [Gen.V, Gen.hostOps0]; after_results; rfl

/-- The neighbour logits, as the region finds them: the column recast as a row of 8192 entries. -/
theorem V_w2 (c : Dev nD) : (V m c main_v5 : S1x8192.Idx → EReal)
    = shapeCast S1x8192 (Proj.w2 (m ((c : Thread nD τ).loc main_arg0)) (m ((c : Thread nD τ).loc main_arg2)) (m ((c : Thread nD τ).loc main_arg3))) Cert.KernelIdeal.Facts₀.shapeCasts_S8192x1_S1x8192 := by
  dsimp only [Gen.V, Gen.hostOps0]; after_results; rfl

/-- The projected features, as the region finds them. -/
theorem V_wh (c : Dev nD) : (V m c main_v6 : S8192x64.Idx → EReal)
    = Proj.wh (m ((c : Thread nD τ).loc main_arg0)) (m ((c : Thread nD τ).loc main_arg2)) := by
  dsimp only [Gen.V, Gen.hostOps0]; after_results; rfl

end Cert.KernelIdeal.HostSide

end
-- ==== Proof.AttnRow.lean ====
/-
  The mathematics of one graph-attention row, stated once for both programs.

  For a node `u` the layer scores every node `i` by `e(u,i)`: the sum of the two attention logits where the adjacency entry is
  not zero and `0` elsewhere, passed through a leaky rectifier of slope f32(0.2). The row of scores is turned into weights
  by a softmax and the weights average the projected features; an exponential linear unit finishes the row.

  The two programs arrange this differently. One takes the softmax of the whole row at once: subtract the row's maximum,
  exponentiate, divide each term by the sum, and only then take the weighted sum of the features (`refRow`). The other
  walks the row block by block and carries a running maximum `m`, a running denominator `l` and a running numerator `a`;
  each block rescales what was carried by `exp (m_old - m_new)` and adds its own terms, and the quotient `a / l` is taken once,
  after the last block (`state`, `kernelRow`). Rows are functions of a natural number so that a block is a shifted window.
-/
import Idealize.ShloMosaic.PureOps.Ideal
import Idealize.ShloMosaic.Lib.ValueIdx

noncomputable section

open scoped BigOperators

namespace Cert.Attn

open Idealize.ShloMosaic Idealize.ShloMosaic.ValueIdx

/-- The word of minus infinity: the bottom of the extended reals. -/
abbrev negInf : EReal := Ideal.ofBits .f32 0xFF800000#32
/-- The zero word. -/
abbrev zeroW : EReal := Ideal.ofBits .f32 0x00000000#32
/-- The word of one. -/
abbrev oneW : EReal := Ideal.ofBits .f32 0x3F800000#32
/-- The rectifier's slope on the negative side, the f32 nearest 0.2. -/
abbrev slope : EReal := Ideal.ofBits .f32 0x3E4CCCCD#32

/-- The masked sum of the two logits: `s1 + s2` where the adjacency entry `a` is not zero, else zero. -/
def masked (a s1 s2 : EReal) : EReal := Scalar.select (Ideal.cmp .one a zeroW) (s1 + s2) zeroW

/-- The score of one edge: the masked sum through the leaky rectifier. -/
def score (a s1 s2 : EReal) : EReal :=
  Scalar.select (Ideal.cmp .oge (masked a s1 s2) zeroW) (masked a s1 s2) (slope * masked a s1 s2)

/-- One block of the streaming pass over a row: `s = (m, l, a)` are the running maximum, denominator and numerator before
    block `k` (columns `b * k` to `b * k + b - 1`), `E` the row of scores and `W` the feature column. -/
def step (b : ℕ) (E W : ℕ → EReal) (k : ℕ) (s : EReal × EReal × EReal) : EReal × EReal × EReal :=
  (max s.1 ((Finset.univ : Finset (Fin b)).fold max negInf fun j => E (b * k + j.val)),
   Ideal.exp (s.1 - max s.1 ((Finset.univ : Finset (Fin b)).fold max negInf fun j => E (b * k + j.val))) * s.2.1
     + ∑ j : Fin b, Ideal.exp (E (b * k + j.val) - max s.1 ((Finset.univ : Finset (Fin b)).fold max negInf fun j => E (b * k + j.val))),
   Ideal.exp (s.1 - max s.1 ((Finset.univ : Finset (Fin b)).fold max negInf fun j => E (b * k + j.val))) * s.2.2
     + ∑ j : Fin b, Ideal.exp (E (b * k + j.val) - max s.1 ((Finset.univ : Finset (Fin b)).fold max negInf fun j => E (b * k + j.val)))
         * W (b * k + j.val))

/-- The carried triple after `k` blocks: minus infinity and two zeros before the first. -/
def state (b : ℕ) (E W : ℕ → EReal) : ℕ → EReal × EReal × EReal
  | 0 => (negInf, zeroW, zeroW)
  | k + 1 => step b E W k (state b E W k)

/-- The exponential linear unit as the streaming program writes it: `x` where positive, else `exp x - 1`. -/
def eluK (x : EReal) : EReal := Scalar.select (Ideal.cmp .ogt x zeroW) x (Ideal.exp x - oneW)

/-- A row's result by the streaming pass over `n` blocks of `b` columns: numerator over denominator, then the unit. -/
def kernelRow (b n : ℕ) (E W : ℕ → EReal) : EReal :=
  eluK (Ideal.div (state b E W n).2.2 (state b E W n).2.1)

/-- The exponential linear unit as the whole-row program writes it: `x` where positive, else one times
    `exp y - 1` at `y` the argument made zero where positive. -/
def eluR (x : EReal) : EReal :=
  Scalar.select (Ideal.cmp .ogt x zeroW) x
    (oneW * (Ideal.exp (Scalar.select (Ideal.cmp .ogt x zeroW) zeroW x) - 1))

/-- The maximum a whole-row softmax subtracts, over the first `N` columns. -/
def rowMax (N : ℕ) (E : ℕ → EReal) : EReal :=
  max negInf ((Finset.univ : Finset (Fin N)).fold max negInf fun i => E i.val)

/-- A row's result by the softmax of the whole row of `N` columns: every weight is its exponential over the sum of
    all of them, the weights average the feature column, then the unit. -/
def refRow (N : ℕ) (E W : ℕ → EReal) : EReal :=
  eluR (∑ i : Fin N, Ideal.div (Ideal.exp (E i.val - rowMax N E)) (zeroW + ∑ j : Fin N, Ideal.exp (E j.val - rowMax N E))
          * W i.val)

/-- A finite family as a function of a natural number, zero past its end. -/
def natRow {n : ℕ} (x : Fin n → EReal) (i : ℕ) : EReal := if h : i < n then x ⟨i, h⟩ else 0

/-- The adjacency matrix's shape, a column's, and the projected features'. -/
abbrev SNN : Shape := ⟨2, ![8192, 8192]⟩
abbrev SN1 : Shape := ⟨2, ![8192, 1]⟩
abbrev SNF : Shape := ⟨2, ![8192, 64]⟩

/-- Node `u`'s row of scores from the adjacency matrix and the two columns of logits. -/
def scoreRow (adj : SNN.Idx → EReal) (w1 w2 : SN1.Idx → EReal) (u : Fin 8192) : ℕ → EReal :=
  natRow fun i : Fin 8192 => score (adj (ix2 u i)) (w1 (ix2 u (0 : Fin 1))) (w2 (ix2 i (0 : Fin 1)))

/-- Feature `f` of every node, as a column. -/
def featCol (wh : SNF.Idx → EReal) (f : Fin 64) : ℕ → EReal := natRow fun i : Fin 8192 => wh (ix2 i f)

/-- The layer's output by the softmax of whole rows. -/
def viaSoftmax (adj : SNN.Idx → EReal) (w1 w2 : SN1.Idx → EReal) (wh : SNF.Idx → EReal) : SNF.Idx → EReal :=
  fun j => refRow 8192 (scoreRow adj w1 w2 (j 0)) (featCol wh (j 1))

/-- The layer's output by the streaming pass, eight blocks of 1024 columns. -/
def viaOnline (adj : SNN.Idx → EReal) (w1 w2 : SN1.Idx → EReal) (wh : SNF.Idx → EReal) : SNF.Idx → EReal :=
  fun j => kernelRow 1024 8 (scoreRow adj w1 w2 (j 0)) (featCol wh (j 1))

end Cert.Attn

end
-- ==== Proof.KernelBlocks.lean ====
/-
  The blocks the streaming program stages at a grid point, as pieces of the arrays. Point `t` of the 8 × 8 grid works on
  row block `t / 8` and column block `t % 8`: it stages the 1024 × 1024 block of the adjacency matrix at those block
  coordinates, the 1024 source logits of its row block, the 1024 neighbour logits of its column block (from the column of
  logits laid out as a row), and the whole array of projected features, of which it then takes the 1024 rows of its
  column block. An entry of a block sits in its array, on each axis, at the block index times the block's extent plus
  the coordinate inside the block.
-/
import proofs.«176268_j36455682408927_2_alg».proof.Proof.KernelPieces
import proofs.«176268_j36455682408927_2_alg».proof.Proof.KernelHost
import proofs.«176268_j36455682408927_2_alg».proof.Proof.AttnRow
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem

namespace Cert.KernelIdeal.Blocks

open Cert.KernelIdeal Cert.KernelIdeal.Gen
open Cert.KernelIdeal.Facts₀ Cert.KernelIdeal.Facts
open Idealize.ShloMosaic.ValueIdx

variable (m : (ℓ : Loc nD τ sig) → Buf (Elt Ideal) ℓ)

/-- The adjacency matrix as launched. -/
abbrev adjA (c : Dev nD) := m ((c : Thread nD τ).loc main_arg1)
/-- The column of source logits. -/
abbrev w1A (c : Dev nD) :=
  Proj.w1 (m ((c : Thread nD τ).loc main_arg0)) (m ((c : Thread nD τ).loc main_arg2)) (m ((c : Thread nD τ).loc main_arg3))
/-- The column of neighbour logits. -/
abbrev w2A (c : Dev nD) :=
  Proj.w2 (m ((c : Thread nD τ).loc main_arg0)) (m ((c : Thread nD τ).loc main_arg2)) (m ((c : Thread nD τ).loc main_arg3))
/-- The projected features. -/
abbrev whA (c : Dev nD) := Proj.wh (m ((c : Thread nD τ).loc main_arg0)) (m ((c : Thread nD τ).loc main_arg2))

/-- The node whose row is row `r` of point `t`'s row block. -/
def rowOf (t : Fin cfg0.N) (r : Fin 1024) : Fin 8192 :=
  ⟨(t.val / 8) * 1024 + r.val, by have := t.isLt; have hN : cfg0.N = 64 := N_0; have := r.isLt; omega⟩

/-- The node whose column is column `j` of point `t`'s column block. -/
def colOf (t : Fin cfg0.N) (j : Fin 1024) : Fin 8192 :=
  ⟨1024 * (t.val % 8) + j.val, by have := j.isLt; omega⟩

/-- The block indices of the four input windows and the second grid coordinate, decided over the grid. -/
theorem idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = 0
    ∧ (grid0.coords t 1).val = t.val % 8 :=
  (by decide +kernel : ∀ t : Fin grid0.N, _)

/-! ### Each block's entries in its array -/

/-- Entry `(r, j)` of the adjacency block is the matrix at row `rowOf t r`, column `colOf t j`. -/
theorem adj_block (c : Dev nD) (t : Fin cfg0.N) (r j : Fin 1024) :
    iblk m c 0 t (ix2 r j) = (adjA m c : S8192x8192.Idx → EReal) (ix2 (rowOf t r) (colOf t j)) := by
  obtain ⟨e0, e1, -⟩ := idx_facts t
  show V m c main_arg1 (((cfg0.win 0).blk t).view.emb (ix2 r j)) = _
  rw [V_main_arg1]
  refine congrArg _ (funext fun a => Fin.ext ?_)
  match a with
  | ⟨0, _⟩ => show win0_0.index t (0 : Fin 2) * 1024 + 1 * r.val = t.val / 8 * 1024 + r.val; omega
  | ⟨1, _⟩ => show win0_0.index t (1 : Fin 2) * 1024 + 1 * j.val = 1024 * (t.val % 8) + j.val; omega

/-- Entry `r` of the block of source logits is the logit of node `rowOf t r`. -/
theorem w1_block (c : Dev nD) (t : Fin cfg0.N) (r : Fin 1024) :
    iblk m c 1 t (ix2 r (0 : Fin 1)) = (w1A m c : S8192x1.Idx → EReal) (ix2 (rowOf t r) (0 : Fin 1)) := by
  obtain ⟨-, -, e0, e1, -⟩ := idx_facts t
  show V m c main_v2 (((cfg0.win 1).blk t).view.emb (ix2 r (0 : Fin 1))) = _
  rw [HostSide.V_w1]
  refine congrArg _ (funext fun a => Fin.ext ?_)
  match a with
  | ⟨0, _⟩ => show win0_1.index t (0 : Fin 2) * 1024 + 1 * r.val = t.val / 8 * 1024 + r.val; omega
  | ⟨1, _⟩ => show win0_1.index t (1 : Fin 2) * 1 + 1 * 0 = 0; omega

/-- Entry `j` of the block of neighbour logits, taken from the column laid out as a row, is the logit of node
    `colOf t j`: position `(0, i)` of the row is position `(i, 0)` of the column. -/
theorem w2_block (c : Dev nD) (t : Fin cfg0.N) (j : Fin 1024) :
    iblk m c 2 t (ix2 (0 : Fin 1) j) = (w2A m c : S8192x1.Idx → EReal) (ix2 (colOf t j) (0 : Fin 1)) := by
  obtain ⟨-, -, -, -, e0, e1, -⟩ := idx_facts t
  show V m c main_v5 (((cfg0.win 2).blk t).view.emb (ix2 (0 : Fin 1) j)) = _
  rw [HostSide.V_w2]
  refine shapeCast_apply _ _ _ _ ?_
  rw [Shape.rowMajor_val_two, Shape.rowMajor_val_two]
  show (1024 * (t.val % 8) + j.val) * 1 + 0 = (win0_2.index t (0 : Fin 2) * 1 + 1 * 0) * 8192 + (win0_2.index t (1 : Fin 2) * 1024 + 1 * j.val)
  omega

/-- Row `j` of the rows of projected features the point multiplies is the features of node `colOf t j`. -/
theorem wh_block (c : Dev nD) (t : Fin cfg0.N) (j : Fin 1024) (f : Fin 64) :
    Pieces.whBlk (grid0.coords t) (iblk m c 3 t) (ix2 j f) = (whA m c : S8192x64.Idx → EReal) (ix2 (colOf t j) f) := by
  obtain ⟨-, -, -, -, -, -, e0, e1, e2⟩ := idx_facts t
  have ho := k0_off1_eq (grid0.coords t)
  show V m c main_v6 (((cfg0.win 3).blk t).view.emb
      ((Rect.unit (s := S8192x64) (k0_off1 (grid0.coords t)) S1024x64.size (Gen.k0_off1_inb (grid0.coords t))).emb (ix2 j f))) = _
  rw [HostSide.V_wh]
  refine congrArg _ (funext fun a => Fin.ext ?_)
  match a with
  | ⟨0, _⟩ =>
    show win0_3.index t (0 : Fin 2) * 8192 + 1 * (k0_off1 (grid0.coords t) 0 + 1 * j.val) = 1024 * (t.val % 8) + j.val
    rw [ho]
    show win0_3.index t (0 : Fin 2) * 8192 + 1 * (1024 * (grid0.coords t 1).val + 1 * j.val) = 1024 * (t.val % 8) + j.val
    omega
  | ⟨1, _⟩ =>
    show win0_3.index t (1 : Fin 2) * 64 + 1 * (k0_off1 (grid0.coords t) 1 + 1 * f.val) = f.val
    rw [ho]
    show win0_3.index t (1 : Fin 2) * 64 + 1 * (0 + 1 * f.val) = f.val
    omega

/-! ### The score of an edge and the features of a neighbour, from the blocks -/

theorem score_block (c : Dev nD) (t : Fin cfg0.N) (r j : Fin 1024) :
    Cert.Attn.score (iblk m c 0 t (ix2 r j)) (iblk m c 1 t (ix2 r (0 : Fin 1))) (iblk m c 2 t (ix2 (0 : Fin 1) j))
      = Cert.Attn.scoreRow (adjA m c) (w1A m c) (w2A m c) (rowOf t r) (1024 * (t.val % 8) + j.val) := by
  rw [adj_block, w1_block, w2_block]
  unfold Cert.Attn.scoreRow Cert.Attn.natRow
  rw [dif_pos (show 1024 * (t.val % 8) + j.val < 8192 from (colOf t j).isLt)]
  rfl

theorem feat_block (c : Dev nD) (t : Fin cfg0.N) (j : Fin 1024) (f : Fin 64) :
    Pieces.whBlk (grid0.coords t) (iblk m c 3 t) (ix2 j f) = Cert.Attn.featCol (whA m c) f (1024 * (t.val % 8) + j.val) := by
  rw [wh_block]
  unfold Cert.Attn.featCol Cert.Attn.natRow
  rw [dif_pos (show 1024 * (t.val % 8) + j.val < 8192 from (colOf t j).isLt)]
  rfl

end Cert.KernelIdeal.Blocks

end
-- ==== Proof.KernelStep.lean ====
/-
  The streaming body's arithmetic read at an index. Each block of 1024 columns of a row r updates three carried values:
  the running maximum, the running denominator and the running numerator. Read at the extended reals, the values the body
  stores are, entry by entry, one step of the streaming recurrence of a row: the block's scores enter through their
  maximum over the block, the sum of their exponentials, and the sum of those exponentials times the feature column.
  The layout operations in between (identity shape casts, a column cast [a] to [a,1], broadcasts of a column or a row over
  a matrix, the sums and maxima along a row, the matrix product) are read at an index one by one first.
-/
import proofs.«176268_j36455682408927_2_alg».proof.Proof.Gen.KernelIdeal.Skeleton
import proofs.«176268_j36455682408927_2_alg».proof.Proof.Gen.KernelIdeal
import proofs.«176268_j36455682408927_2_alg».proof.Proof.AttnRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.StepAt

open Idealize.ShloMosaic Idealize.ShloMosaic.ValueIdx Cert.KernelIdeal Cert.KernelIdeal.Gen

/-! ## Layout operations at an index -/

/-- A vector [a] cast to a column [a, 1] reads, at (i, u), the operand at i: both sit at row-major position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of the [1024, 1024] block that lies over row r with column j put back on the reduced axis is (r, j). -/
theorem lift_row (r j : Fin 1024) : reduces_S1024x1024_S1024.lift (ix1 r) j = ix2 r j := by
  funext c
  apply Fin.ext
  match c with
  | ⟨0, _⟩ => rfl
  | ⟨1, _⟩ => rfl

/-- The maximum along each row from minus infinity, cast to a column, reads at (r, 0) the fold of max over row r. -/
theorem rowmax_apply (src : FVec Ideal S1024x1024 .f32) (r : Fin 1024) :
    shapeCast S1024x1 (multiReduction .maximumf [1] S1024 src 0xFF800000#32 reduces_S1024x1024_S1024 (.inl rfl) rfl)
        shapeCasts_S1024_S1024x1 (ix2 r (0 : Fin 1))
      = (Finset.univ : Finset (Fin 1024)).fold max Attn.negInf fun j => src (ix2 r j) := by
  refine (shapeCast_a_a1_apply _ _ r 0).trans ?_
  refine (Ideal.multiReduction_maximumf_single src _ reduces_S1024x1024_S1024 _ _ (ix1 r)).trans ?_
  exact congrArg (fun g : Fin 1024 → EReal => (Finset.univ : Finset (Fin 1024)).fold max Attn.negInf g)
    (funext fun j => congrArg src (lift_row r j))

/-- The sum along each row from the zero word, cast to a column, reads at (r, 0) the sum over row r. -/
theorem rowsum_apply (src : FVec Ideal S1024x1024 .f32) (r : Fin 1024) :
    shapeCast S1024x1 (multiReduction .add [1] S1024 src 0x00000000#32 reduces_S1024x1024_S1024 (.inl rfl) rfl)
        shapeCasts_S1024_S1024x1 (ix2 r (0 : Fin 1))
      = ∑ j : Fin 1024, src (ix2 r j) := by
  refine (shapeCast_a_a1_apply _ _ r 0).trans ?_
  refine (Ideal.multiReduction_add_single src _ reduces_S1024x1024_S1024 _ _ (ix1 r)).trans ?_
  exact Finset.sum_congr rfl fun j _ => congrArg src (lift_row r j)

/-- The matrix product into the zero block reads, at (r, f), the sum over the contracted column j of p (r, j) * w (j, f). -/
theorem matmul_row_apply (p : FVec Ideal S1024x1024 .bf16) (w : FVec Ideal S1024x64 .bf16) (r : Fin 1024) (f : Fin 64) :
    matmul dot_S1024x1024_S1024x64_S1024x64_1_0_0_1_n_n none p w (constant (F := Ideal) S1024x64 .f32 0x00000000#32) (ix2 r f)
      = ∑ j : Fin 1024, p (ix2 r j) * w (ix2 j f) := by
  refine (Ideal.matmul_constant_zero_apply dot_S1024x1024_S1024x64_S1024x64_1_0_0_1_n_n none p w (ix2 r f)).trans ?_
  refine (Equiv.sum_comp (contrEquiv1 dot_S1024x1024_S1024x64_S1024x64_1_0_0_1_n_n 1024 rfl rfl).symm _).symm.trans ?_
  refine Finset.sum_congr rfl fun j _ => ?_
  have hl : DotDims.lhsIdx dot_S1024x1024_S1024x64_S1024x64_1_0_0_1_n_n (ix2 r f) ((contrEquiv1 dot_S1024x1024_S1024x64_S1024x64_1_0_0_1_n_n 1024 rfl rfl).symm j) = ix2 r j := by
    funext a
    apply Fin.ext
    match a with
    | ⟨0, _⟩ => rfl
    | ⟨1, _⟩ =>
      exact (DotDims.lhsIdx_val_of_single dot_S1024x1024_S1024x64_S1024x64_1_0_0_1_n_n rfl (ix2 r f) _).trans (contrEquiv1_symm_val dot_S1024x1024_S1024x64_S1024x64_1_0_0_1_n_n 1024 rfl rfl j)
  have hr : DotDims.rhsIdx dot_S1024x1024_S1024x64_S1024x64_1_0_0_1_n_n (ix2 r f) ((contrEquiv1 dot_S1024x1024_S1024x64_S1024x64_1_0_0_1_n_n 1024 rfl rfl).symm j) = ix2 j f := by
    funext a
    apply Fin.ext
    match a with
    | ⟨0, _⟩ =>
      exact (DotDims.rhsIdx_val_of_single dot_S1024x1024_S1024x64_S1024x64_1_0_0_1_n_n rfl (ix2 r f) _).trans (contrEquiv1_symm_val dot_S1024x1024_S1024x64_S1024x64_1_0_0_1_n_n 1024 rfl rfl j)
    | ⟨1, _⟩ => rfl
  show p (DotDims.lhsIdx dot_S1024x1024_S1024x64_S1024x64_1_0_0_1_n_n (ix2 r f) ((contrEquiv1 dot_S1024x1024_S1024x64_S1024x64_1_0_0_1_n_n 1024 rfl rfl).symm j))
      * w (DotDims.rhsIdx dot_S1024x1024_S1024x64_S1024x64_1_0_0_1_n_n (ix2 r f) ((contrEquiv1 dot_S1024x1024_S1024x64_S1024x64_1_0_0_1_n_n 1024 rfl rfl).symm j)) = _
  rw [hl, hr]

/-! ## The payloads at an index -/

section Payloads

variable (x0 : FVec Ideal S1024x1024 .f32) (x1 : FVec Ideal S1024x1 .f32) (x2 : FVec Ideal S1x1024 .f32)
  (xs0 xs1 : FVec Ideal S1024x1 .f32)

/-- The score block at (r, j): the score of the adjacency entry, the row's source logit and the column's neighbour logit. -/
theorem pay7_apply (r j : Fin 1024) :
    k0_pay7 (F := Ideal) x0 x1 x2 (ix2 r j)
      = Attn.score (x0 (ix2 r j)) (x1 (ix2 r (0 : Fin 1))) (x2 (ix2 (0 : Fin 1) j)) := by
  have hA : broadcastTo S1024x1024 (shapeCast S1024x1 x1 shapeCasts_S1024x1_S1024x1) broadcasts_S1024x1_S1024x1024 (ix2 r j)
      = x1 (ix2 r (0 : Fin 1)) :=
    (broadcastTo_a1_ab_apply _ _ r j).trans (congrFun (shapeCast_self x1 _) _)
  have hB : broadcastTo S1024x1024 (shapeCast S1x1024 x2 shapeCasts_S1x1024_S1x1024) broadcasts_S1x1024_S1024x1024 (ix2 r j)
      = x2 (ix2 (0 : Fin 1) j) :=
    (broadcastTo_1b_ab_apply _ _ r j).trans (congrFun (shapeCast_self x2 _) _)
  rw [← hA, ← hB]
  rfl

/-- The new running maximum at row r: the old one against the maximum of the score block's row. -/
theorem pay8_apply (r : Fin 1024) :
    k0_pay8 (F := Ideal) x0 x1 x2 xs0 (ix2 r (0 : Fin 1))
      = max (xs0 (ix2 r (0 : Fin 1)))
          ((Finset.univ : Finset (Fin 1024)).fold max Attn.negInf fun j => k0_pay7 (F := Ideal) x0 x1 x2 (ix2 r j)) :=
  congrArg (max (xs0 (ix2 r (0 : Fin 1)))) (rowmax_apply (k0_pay7 (F := Ideal) x0 x1 x2) r)

/-- The rescaling factor at row r: the exponential of the old maximum less the new. -/
theorem pay9_apply (r : Fin 1024) :
    k0_pay9 (F := Ideal) x0 x1 x2 xs0 (ix2 r (0 : Fin 1))
      = Ideal.exp (xs0 (ix2 r (0 : Fin 1)) - k0_pay8 (F := Ideal) x0 x1 x2 xs0 (ix2 r (0 : Fin 1))) := rfl

/-- The block of exponentials at (r, j): the score less the row's new maximum, exponentiated. -/
theorem pay10_apply (r j : Fin 1024) :
    k0_pay10 (F := Ideal) x0 x1 x2 xs0 (ix2 r j)
      = Ideal.exp (k0_pay7 (F := Ideal) x0 x1 x2 (ix2 r j) - k0_pay8 (F := Ideal) x0 x1 x2 xs0 (ix2 r (0 : Fin 1))) :=
  congrArg (fun t => Ideal.exp (k0_pay7 (F := Ideal) x0 x1 x2 (ix2 r j) - t))
    (broadcastTo_a1_ab_apply (k0_pay8 (F := Ideal) x0 x1 x2 xs0) broadcasts_S1024x1_S1024x1024 r j)

/-- The new running denominator at row r: the old one rescaled plus the sum of the row of exponentials. -/
theorem pay11_apply (r : Fin 1024) :
    k0_pay11 (F := Ideal) x0 x1 x2 xs0 xs1 (ix2 r (0 : Fin 1))
      = k0_pay9 (F := Ideal) x0 x1 x2 xs0 (ix2 r (0 : Fin 1)) * xs1 (ix2 r (0 : Fin 1))
        + ∑ j : Fin 1024, k0_pay10 (F := Ideal) x0 x1 x2 xs0 (ix2 r j) := by
  unfold k0_pay11
  refine (congrFun (shapeCast_self _ shapeCasts_S1024x1_S1024x1) (ix2 r (0 : Fin 1))).trans ?_
  exact congrArg (k0_pay9 (F := Ideal) x0 x1 x2 xs0 (ix2 r (0 : Fin 1)) * xs1 (ix2 r (0 : Fin 1)) + ·)
    (rowsum_apply (k0_pay10 (F := Ideal) x0 x1 x2 xs0) r)

/-- The new running numerator at (r, f): the old one rescaled by row r's factor plus the row of exponentials against
    feature column f. -/
theorem pay1_apply (v25 : FVec Ideal S1024x1 .f32) (v28 : FVec Ideal S1024x1024 .f32) (whb : FVec Ideal S1024x64 .bf16)
    (xs2 : FVec Ideal S1024x64 .f32) (r : Fin 1024) (f : Fin 64) :
    k0_pay1 (F := Ideal) v25 v28 whb xs2 (ix2 r f)
      = v25 (ix2 r (0 : Fin 1)) * xs2 (ix2 r f) + ∑ j : Fin 1024, v28 (ix2 r j) * whb (ix2 j f) := by
  unfold k0_pay1
  refine (congrFun (shapeCast_self _ shapeCasts_S1024x64_S1024x64) (ix2 r f)).trans ?_
  have hm : matmul dot_S1024x1024_S1024x64_S1024x64_1_0_0_1_n_n none (truncf .bf16 v28 bitsLt_bf16_f32)
        (shapeCast S1024x64 whb shapeCasts_S1024x64_S1024x64) (constant (F := Ideal) S1024x64 .f32 0x00000000#32) (ix2 r f)
      = ∑ j : Fin 1024, v28 (ix2 r j) * whb (ix2 j f) := by
    rw [shapeCast_self]
    exact matmul_row_apply _ whb r f
  have hb : broadcastTo S1024x64 v25 broadcasts_S1024x1_S1024x64 (ix2 r f) = v25 (ix2 r (0 : Fin 1)) :=
    broadcastTo_a1_ab_apply v25 _ r f
  rw [← hm, ← hb]
  rfl

/-- Where the block's scores are the row's entries 1024 k + j and the carried maximum is the state's, the new maximum at
    row r is the state's maximum against the block's. -/
theorem pay8_step (r : Fin 1024) (E : ℕ → EReal) (k : ℕ) (s : EReal × EReal × EReal)
    (hE : ∀ j : Fin 1024, Attn.score (x0 (ix2 r j)) (x1 (ix2 r (0 : Fin 1))) (x2 (ix2 (0 : Fin 1) j)) = E (1024 * k + j.val))
    (h0 : xs0 (ix2 r (0 : Fin 1)) = s.1) :
    k0_pay8 (F := Ideal) x0 x1 x2 xs0 (ix2 r (0 : Fin 1))
      = max s.1 ((Finset.univ : Finset (Fin 1024)).fold max Attn.negInf fun j => E (1024 * k + j.val)) := by
  have hrow : (fun j : Fin 1024 => k0_pay7 (F := Ideal) x0 x1 x2 (ix2 r j)) = fun j => E (1024 * k + j.val) :=
    funext fun j => (pay7_apply x0 x1 x2 r j).trans (hE j)
  rw [pay8_apply, hrow, h0]

end Payloads

/-! ## One step of the streaming recurrence -/

/-- The values the first block of a row finds: minus infinity and two zeros. -/
theorem reset_max (r : Fin 1024) : k0_pay4 (F := Ideal) (ix2 r (0 : Fin 1)) = Attn.negInf := by
  unfold k0_pay4
  exact congrFun (shapeCast_self _ shapeCasts_S1024x1_S1024x1) (ix2 r (0 : Fin 1))

theorem reset_den (r : Fin 1024) : k0_pay5 (F := Ideal) (ix2 r (0 : Fin 1)) = Attn.zeroW := by
  unfold k0_pay5
  exact congrFun (shapeCast_self _ shapeCasts_S1024x1_S1024x1) (ix2 r (0 : Fin 1))

theorem reset_num (r : Fin 1024) (f : Fin 64) : k0_pay6 (F := Ideal) (ix2 r f) = Attn.zeroW := by
  unfold k0_pay6
  exact congrFun (shapeCast_self _ shapeCasts_S1024x64_S1024x64) (ix2 r f)

/-- The stored running maximum is the first component of the step. -/
theorem max_apply (x0 : FVec Ideal S1024x1024 .f32) (x1 : FVec Ideal S1024x1 .f32) (x2 : FVec Ideal S1x1024 .f32)
    (xs0 : FVec Ideal S1024x1 .f32) (r : Fin 1024) (E W : ℕ → EReal) (k : ℕ) (s : EReal × EReal × EReal)
    (hE : ∀ j : Fin 1024, Attn.score (x0 (ix2 r j)) (x1 (ix2 r (0 : Fin 1))) (x2 (ix2 (0 : Fin 1) j)) = E (1024 * k + j.val))
    (h0 : xs0 (ix2 r (0 : Fin 1)) = s.1) :
    k0_pay2 (F := Ideal) (k0_pay8 (F := Ideal) x0 x1 x2 xs0) (ix2 r (0 : Fin 1)) = (Attn.step 1024 E W k s).1 := by
  unfold k0_pay2
  refine (congrFun (shapeCast_self _ shapeCasts_S1024x1_S1024x1) (ix2 r (0 : Fin 1))).trans ?_
  exact pay8_step x0 x1 x2 xs0 r E k s hE h0

/-- The stored running denominator is the second component of the step. -/
theorem den_apply (x0 : FVec Ideal S1024x1024 .f32) (x1 : FVec Ideal S1024x1 .f32) (x2 : FVec Ideal S1x1024 .f32)
    (xs0 xs1 : FVec Ideal S1024x1 .f32) (r : Fin 1024) (E W : ℕ → EReal) (k : ℕ) (s : EReal × EReal × EReal)
    (hE : ∀ j : Fin 1024, Attn.score (x0 (ix2 r j)) (x1 (ix2 r (0 : Fin 1))) (x2 (ix2 (0 : Fin 1) j)) = E (1024 * k + j.val))
    (h0 : xs0 (ix2 r (0 : Fin 1)) = s.1) (h1 : xs1 (ix2 r (0 : Fin 1)) = s.2.1) :
    k0_pay11 (F := Ideal) x0 x1 x2 xs0 xs1 (ix2 r (0 : Fin 1)) = (Attn.step 1024 E W k s).2.1 := by
  have hM := pay8_step x0 x1 x2 xs0 r E k s hE h0
  rw [pay11_apply, pay9_apply, hM, h0, h1]
  refine congrArg (_ + ·) (Finset.sum_congr rfl fun j _ => ?_)
  rw [pay10_apply, hM, pay7_apply, hE]

/-- The stored running numerator is the third component of the step. -/
theorem num_apply (x0 : FVec Ideal S1024x1024 .f32) (x1 : FVec Ideal S1024x1 .f32) (x2 : FVec Ideal S1x1024 .f32)
    (xs0 : FVec Ideal S1024x1 .f32) (whb : FVec Ideal S1024x64 .bf16) (xs2 : FVec Ideal S1024x64 .f32)
    (r : Fin 1024) (f : Fin 64) (E W : ℕ → EReal) (k : ℕ) (s : EReal × EReal × EReal)
    (hE : ∀ j : Fin 1024, Attn.score (x0 (ix2 r j)) (x1 (ix2 r (0 : Fin 1))) (x2 (ix2 (0 : Fin 1) j)) = E (1024 * k + j.val))
    (h0 : xs0 (ix2 r (0 : Fin 1)) = s.1) (hW : ∀ j : Fin 1024, whb (ix2 j f) = W (1024 * k + j.val))
    (h2 : xs2 (ix2 r f) = s.2.2) :
    k0_pay1 (F := Ideal) (k0_pay9 (F := Ideal) x0 x1 x2 xs0) (k0_pay10 (F := Ideal) x0 x1 x2 xs0) whb xs2 (ix2 r f)
      = (Attn.step 1024 E W k s).2.2 := by
  have hM := pay8_step x0 x1 x2 xs0 r E k s hE h0
  rw [pay1_apply, pay9_apply, hM, h0, h2]
  refine congrArg (_ + ·) (Finset.sum_congr rfl fun j _ => ?_)
  rw [pay10_apply, hM, pay7_apply, hE, hW]

/-- What the last block writes out at (r, f): the numerator over row r's denominator, through the exponential linear unit. -/
theorem out_apply (a : FVec Ideal S1024x64 .f32) (l : FVec Ideal S1024x1 .f32) (r : Fin 1024) (f : Fin 64) :
    k0_pay3 (F := Ideal) a l (ix2 r f) = Attn.eluK (Ideal.div (a (ix2 r f)) (l (ix2 r (0 : Fin 1)))) := by
  have hb : broadcastTo S1024x64 l broadcasts_S1024x1_S1024x64 (ix2 r f) = l (ix2 r (0 : Fin 1)) :=
    broadcastTo_a1_ab_apply l _ r f
  rw [← hb]
  rfl

end Cert.KernelIdeal.StepAt

end
-- ==== Proof.KernelInv.lean ====
/-
  The invariant of the streaming pass. Grid point `t` is block column `t % 8` of block row `t / 8`. After it, entry `r` of the
  running maximum and of the running denominator, and entry `(r, f)` of the running numerator, are the carried triple of
  the row mathematics after `t % 8 + 1` blocks, for the node in row `r` of the block row and feature `f`: by induction
  on the point, a point that opens a block row starting again from minus infinity, zero and zero.
-/
import proofs.«176268_j36455682408927_2_alg».proof.Proof.KernelPoints
import proofs.«176268_j36455682408927_2_alg».proof.Proof.KernelBlocks
import proofs.«176268_j36455682408927_2_alg».proof.Proof.KernelStep
import proofs.«176268_j36455682408927_2_alg».proof.Proof.AttnRow

set_option maxRecDepth 16384

noncomputable section

open Idealize.ShloMosaic Idealize.ShloMosaic.TcCoe Idealize.SL.Sem

namespace Cert.KernelIdeal.Inv

open Cert.KernelIdeal Cert.KernelIdeal.Gen Cert.KernelIdeal.Blocks Idealize.ShloMosaic.ValueIdx

variable (m : (ℓ : Loc nD τ sig) → Buf (Elt Ideal) ℓ)

/-- After the first block of a block row: one step from the reset triple. -/
theorem inv_first (c : Dev nD) (t : Fin cfg0.N) (h0 : t.val % 8 = 0) (r : Fin 1024) (f : Fin 64) :
    (outsAt0 m c t.val t.isLt).2.1 (ix2 r (0 : Fin 1)) = (Cert.Attn.state 1024 (Cert.Attn.scoreRow (adjA m c) (w1A m c) (w2A m c) (rowOf t r)) (Cert.Attn.featCol (whA m c) f) 1).1
    ∧ (outsAt0 m c t.val t.isLt).2.2.1 (ix2 r (0 : Fin 1)) = (Cert.Attn.state 1024 (Cert.Attn.scoreRow (adjA m c) (w1A m c) (w2A m c) (rowOf t r)) (Cert.Attn.featCol (whA m c) f) 1).2.1
    ∧ (outsAt0 m c t.val t.isLt).2.2.2 (ix2 r f) = (Cert.Attn.state 1024 (Cert.Attn.scoreRow (adjA m c) (w1A m c) (w2A m c) (rowOf t r)) (Cert.Attn.featCol (whA m c) f) 1).2.2 := by
  obtain ⟨e0, e1, e2⟩ := Points.first_point m c t h0
  have hE : ∀ j : Fin 1024, Cert.Attn.score (iblk m c 0 t (ix2 r j)) (iblk m c 1 t (ix2 r (0 : Fin 1))) (iblk m c 2 t (ix2 (0 : Fin 1) j))
      = (Cert.Attn.scoreRow (adjA m c) (w1A m c) (w2A m c) (rowOf t r)) (1024 * 0 + j.val) := fun j => by
    have h := score_block m c t r j; rw [h0] at h; exact h
  have hW : ∀ j : Fin 1024, Pieces.whBlk (grid0.coords t) (iblk m c 3 t) (ix2 j f) = (Cert.Attn.featCol (whA m c) f) (1024 * 0 + j.val) := fun j => by
    have h := feat_block m c t j f; rw [h0] at h; exact h
  rw [e0, e1, e2]
  refine ⟨?_, ?_, ?_⟩
  · exact StepAt.max_apply (x0 := iblk m c 0 t) (x1 := iblk m c 1 t) (x2 := iblk m c 2 t) (xs0 := k0_pay4) (r := r) (E := (Cert.Attn.scoreRow (adjA m c) (w1A m c) (w2A m c) (rowOf t r))) (W := (Cert.Attn.featCol (whA m c) f)) (k := 0)
      (s := (Cert.Attn.negInf, Cert.Attn.zeroW, Cert.Attn.zeroW)) (hE := hE) (h0 := StepAt.reset_max r)
  · exact StepAt.den_apply (x0 := iblk m c 0 t) (x1 := iblk m c 1 t) (x2 := iblk m c 2 t) (xs0 := k0_pay4) (xs1 := k0_pay5) (r := r) (E := (Cert.Attn.scoreRow (adjA m c) (w1A m c) (w2A m c) (rowOf t r))) (W := (Cert.Attn.featCol (whA m c) f)) (k := 0)
      (s := (Cert.Attn.negInf, Cert.Attn.zeroW, Cert.Attn.zeroW)) (hE := hE) (h0 := StepAt.reset_max r) (h1 := StepAt.reset_den r)
  · exact StepAt.num_apply (x0 := iblk m c 0 t) (x1 := iblk m c 1 t) (x2 := iblk m c 2 t) (xs0 := k0_pay4) (whb := Pieces.whBlk (grid0.coords t) (iblk m c 3 t)) (xs2 := k0_pay6)
      (r := r) (f := f) (E := (Cert.Attn.scoreRow (adjA m c) (w1A m c) (w2A m c) (rowOf t r))) (W := (Cert.Attn.featCol (whA m c) f)) (k := 0)
      (s := (Cert.Attn.negInf, Cert.Attn.zeroW, Cert.Attn.zeroW)) (hE := hE) (h0 := StepAt.reset_max r) (hW := hW) (h2 := StepAt.reset_num r f)

/-- After a later block: one step from what the point before left. -/
theorem inv_later (c : Dev nD) (t : Fin cfg0.N) (h0 : ¬t.val % 8 = 0) (r : Fin 1024) (f : Fin 64) (s : EReal × EReal × EReal)
    (p0 : (outsAt0 m c (t.val - 1) (Nat.lt_of_le_of_lt (Nat.sub_le _ _) t.isLt)).2.1 (ix2 r (0 : Fin 1)) = s.1)
    (p1 : (outsAt0 m c (t.val - 1) (Nat.lt_of_le_of_lt (Nat.sub_le _ _) t.isLt)).2.2.1 (ix2 r (0 : Fin 1)) = s.2.1)
    (p2 : (outsAt0 m c (t.val - 1) (Nat.lt_of_le_of_lt (Nat.sub_le _ _) t.isLt)).2.2.2 (ix2 r f) = s.2.2) :
    (outsAt0 m c t.val t.isLt).2.1 (ix2 r (0 : Fin 1)) = (Cert.Attn.step 1024 (Cert.Attn.scoreRow (adjA m c) (w1A m c) (w2A m c) (rowOf t r)) (Cert.Attn.featCol (whA m c) f) (t.val % 8) s).1
    ∧ (outsAt0 m c t.val t.isLt).2.2.1 (ix2 r (0 : Fin 1)) = (Cert.Attn.step 1024 (Cert.Attn.scoreRow (adjA m c) (w1A m c) (w2A m c) (rowOf t r)) (Cert.Attn.featCol (whA m c) f) (t.val % 8) s).2.1
    ∧ (outsAt0 m c t.val t.isLt).2.2.2 (ix2 r f) = (Cert.Attn.step 1024 (Cert.Attn.scoreRow (adjA m c) (w1A m c) (w2A m c) (rowOf t r)) (Cert.Attn.featCol (whA m c) f) (t.val % 8) s).2.2 := by
  obtain ⟨e0, e1, e2⟩ := Points.later_point m c t h0
  have hE : ∀ j : Fin 1024, Cert.Attn.score (iblk m c 0 t (ix2 r j)) (iblk m c 1 t (ix2 r (0 : Fin 1))) (iblk m c 2 t (ix2 (0 : Fin 1) j))
      = (Cert.Attn.scoreRow (adjA m c) (w1A m c) (w2A m c) (rowOf t r)) (1024 * (t.val % 8) + j.val) := fun j => score_block m c t r j
  have hW : ∀ j : Fin 1024, Pieces.whBlk (grid0.coords t) (iblk m c 3 t) (ix2 j f) = (Cert.Attn.featCol (whA m c) f) (1024 * (t.val % 8) + j.val) := fun j => feat_block m c t j f
  rw [e0, e1, e2]
  refine ⟨?_, ?_, ?_⟩
  · exact StepAt.max_apply (x0 := iblk m c 0 t) (x1 := iblk m c 1 t) (x2 := iblk m c 2 t) (xs0 := (outsAt0 m c (t.val - 1) (Nat.lt_of_le_of_lt (Nat.sub_le _ _) t.isLt)).2.1) (r := r) (E := (Cert.Attn.scoreRow (adjA m c) (w1A m c) (w2A m c) (rowOf t r))) (W := (Cert.Attn.featCol (whA m c) f)) (k := t.val % 8)
      (s := s) (hE := hE) (h0 := p0)
  · exact StepAt.den_apply (x0 := iblk m c 0 t) (x1 := iblk m c 1 t) (x2 := iblk m c 2 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (r := r) (E := (Cert.Attn.scoreRow (adjA m c) (w1A m c) (w2A m c) (rowOf t r))) (W := (Cert.Attn.featCol (whA m c) f)) (k := t.val % 8)
      (s := s) (hE := hE) (h0 := p0) (h1 := p1)
  · exact StepAt.num_apply (x0 := iblk m c 0 t) (x1 := iblk m c 1 t) (x2 := iblk m c 2 t) (xs0 := (outsAt0 m c (t.val - 1) (Nat.lt_of_le_of_lt (Nat.sub_le _ _) t.isLt)).2.1) (whb := Pieces.whBlk (grid0.coords t) (iblk m c 3 t)) (xs2 := (outsAt0 m c (t.val - 1) (Nat.lt_of_le_of_lt (Nat.sub_le _ _) t.isLt)).2.2.2)
      (r := r) (f := f) (E := (Cert.Attn.scoreRow (adjA m c) (w1A m c) (w2A m c) (rowOf t r))) (W := (Cert.Attn.featCol (whA m c) f)) (k := t.val % 8)
      (s := s) (hE := hE) (h0 := p0) (hW := hW) (h2 := p2)

/-- Two points of one block row look at the same node in row `r`. -/
theorem rowOf_succ (n : ℕ) (hn : n + 1 < cfg0.N) (h0 : ¬(n + 1) % 8 = 0) (r : Fin 1024) :
    rowOf ⟨n + 1, hn⟩ r = rowOf ⟨n, Nat.lt_of_succ_lt hn⟩ r := by
  apply Fin.ext
  show (n + 1) / 8 * 1024 + r.val = n / 8 * 1024 + r.val
  omega

/-- THE INVARIANT, at every point. -/
theorem inv (c : Dev nD) : ∀ (n : ℕ) (hn : n < cfg0.N) (r : Fin 1024) (f : Fin 64),
    (outsAt0 m c n hn).2.1 (ix2 r (0 : Fin 1)) = (Cert.Attn.state 1024 (Cert.Attn.scoreRow (adjA m c) (w1A m c) (w2A m c) (rowOf ⟨n, hn⟩ r)) (Cert.Attn.featCol (whA m c) f) (n % 8 + 1)).1
    ∧ (outsAt0 m c n hn).2.2.1 (ix2 r (0 : Fin 1)) = (Cert.Attn.state 1024 (Cert.Attn.scoreRow (adjA m c) (w1A m c) (w2A m c) (rowOf ⟨n, hn⟩ r)) (Cert.Attn.featCol (whA m c) f) (n % 8 + 1)).2.1
    ∧ (outsAt0 m c n hn).2.2.2 (ix2 r f) = (Cert.Attn.state 1024 (Cert.Attn.scoreRow (adjA m c) (w1A m c) (w2A m c) (rowOf ⟨n, hn⟩ r)) (Cert.Attn.featCol (whA m c) f) (n % 8 + 1)).2.2
  | 0, hn, r, f => inv_first m c ⟨0, hn⟩ rfl r f
  | n + 1, hn, r, f => by
    by_cases h0 : (n + 1) % 8 = 0
    · have e : (n + 1) % 8 + 1 = 1 := by omega
      rw [e]
      exact inv_first m c ⟨n + 1, hn⟩ h0 r f
    · have ih := inv c n (Nat.lt_of_succ_lt hn) r f
      rw [← rowOf_succ n hn h0 r] at ih
      have e : (n + 1) % 8 = n % 8 + 1 := by omega
      have h := inv_later m c ⟨n + 1, hn⟩ h0 r f (Cert.Attn.state 1024 (Cert.Attn.scoreRow (adjA m c) (w1A m c) (w2A m c) (rowOf ⟨n + 1, hn⟩ r)) (Cert.Attn.featCol (whA m c) f) (n % 8 + 1)) ih.1 ih.2.1 ih.2.2
      dsimp only at h
      rw [e]
      rw [e] at h
      exact h

end Cert.KernelIdeal.Inv

end
-- ==== Proof.KernelValue.lean ====
/-
  The streaming program's result array. A block row's last point writes its block back: entry `(r, f)` is the quotient of
  the running numerator by the running denominator after all eight blocks, through the exponential linear unit — the row
  mathematics' streamed result for the node in that row and feature `f`. The eight writing points cover the array.
-/
import proofs.«176268_j36455682408927_2_alg».proof.Proof.KernelInv
import proofs.«176268_j36455682408927_2_alg».proof.Proof.Gen.KernelIdeal.Value

set_option maxRecDepth 16384

noncomputable section

open Idealize.ShloMosaic Idealize.ShloMosaic.TcCoe Idealize.SL.Sem
open Idealize.ShloMosaic.Pipeline (Dat)

namespace Cert.KernelIdeal.Streamed

open Cert.KernelIdeal Cert.KernelIdeal.Gen Cert.KernelIdeal.Blocks Idealize.ShloMosaic.ValueIdx

variable (m : (ℓ : Loc nD τ sig) → Buf (Elt Ideal) ℓ) (ρ : Dev nD → PrngReg)

/-- The output's block at point `t` is block row `t / 8`, all 64 features. -/
theorem idx4 : ∀ t : Fin cfg0.N, win0_4.index t (0 : Fin 2) = t.val / 8 ∧ win0_4.index t (1 : Fin 2) = 0 :=
  (by decide +kernel : ∀ t : Fin grid0.N, _)

/-- The layer's output by the streaming pass, of the arrays the program is given. -/
abbrev result (c : Dev nD) : S8192x64.Idx → EReal := Cert.Attn.viaOnline (adjA m c) (w1A m c) (w2A m c) (whA m c)

/-- What a writing point writes back is its block of the streamed result. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have h0 : ¬t.val % 8 = 0 := by omega
  obtain ⟨-, e1, e2⟩ := Points.later_point m c t h0
  obtain ⟨i0, i1⟩ := idx4 t
  rw [Value.flushed4_C m c t h0 h7]
  rw [Pieces.last_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rw [← e1, ← e2]
  funext y
  obtain ⟨r, f, rfl⟩ : ∃ (r : Fin 1024) (f : Fin 64), y = ix2 r f := ⟨y 0, y 1, eq_ix2 y⟩
  show k0_pay3 (outsAt0 m c t.val t.isLt).2.2.2 (outsAt0 m c t.val t.isLt).2.2.1 (ix2 r f)
      = result m c (((cfg0.win 4).blk t).view.emb (ix2 r f))
  have hj : ((cfg0.win 4).blk t).view.emb (ix2 r f) = ix2 (rowOf t r) f := by
    funext a; apply Fin.ext
    match a with
    | ⟨0, _⟩ => show win0_4.index t (0 : Fin 2) * 1024 + 1 * r.val = t.val / 8 * 1024 + r.val; omega
    | ⟨1, _⟩ => show win0_4.index t (1 : Fin 2) * 64 + 1 * f.val = f.val; omega
  rw [hj]
  obtain ⟨-, q1, q2⟩ := Inv.inv m c t.val t.isLt r f
  refine (StepAt.out_apply (a := (outsAt0 m c t.val t.isLt).2.2.2) (l := (outsAt0 m c t.val t.isLt).2.2.1) (r := r) (f := f)).trans ?_
  rw [q1, q2]
  have e8 : t.val % 8 + 1 = 8 := by omega
  rw [e8]
  rfl

/-- Every entry of the array is in the block of its block row's last point. -/
theorem cover (i : S8192x64.Idx) : ∃ t : Fin cfg0.N, (cfg0.win 4).flush t = true ∧ i ∈ ((cfg0.win 4).blk t).view.set := by
  have hN : cfg0.N = 64 := N_0
  have hi0 : (i 0).val < 8192 := (i 0).isLt
  have hi1 : (i 1).val < 64 := (i 1).isLt
  have hb : 8 * ((i 0).val / 1024) + 7 < cfg0.N := by omega
  obtain ⟨i0, i1⟩ := idx4 ⟨8 * ((i 0).val / 1024) + 7, hb⟩
  dsimp only at i0 i1
  refine ⟨⟨8 * ((i 0).val / 1024) + 7, hb⟩, (flush0_4 _).mpr (by dsimp only; omega), ?_⟩
  show i ∈ ((View.whole main_v7).slice (win0_4.rect ⟨8 * ((i 0).val / 1024) + 7, hb⟩)).set
  rw [View.set_slice_whole, Rect.mem_set_unit]
  intro a
  match a with
  | ⟨0, _⟩ =>
    show win0_4.index ⟨8 * ((i 0).val / 1024) + 7, hb⟩ (0 : Fin 2) * 1024 ≤ (i 0).val
      ∧ (i 0).val < win0_4.index ⟨8 * ((i 0).val / 1024) + 7, hb⟩ (0 : Fin 2) * 1024 + 1024
    omega
  | ⟨1, _⟩ =>
    show win0_4.index ⟨8 * ((i 0).val / 1024) + 7, hb⟩ (1 : Fin 2) * 64 ≤ (i 1).val
      ∧ (i 1).val < win0_4.index ⟨8 * ((i 0).val / 1024) + 7, hb⟩ (1 : Fin 2) * 64 + 64
    omega

/-- So the result array ends holding the streamed result. -/
theorem final (c : Dev nD) : (dats m 0 c).arrAt 4 cfg0.N = result m c :=
  (dats m 0 c).arrAt_eq_of_cover 4 (result m c) (flushed_eq m c) cover

/-- The program's run: it ends with the streamed result in its result array and its arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Streamed

end
-- ==== Proof.RefRun.lean ====
/-
  The whole-row program's run. Its @main is a straight line of host operations once the three functions it calls
  (two selects of the masking and the rectifier, and the exponential linear unit, which itself calls two selects) are put
  back at their call sites: fifty-two operations. Every weakly fair execution runs them in order and stops; the result
  buffer then holds the operations' composition applied to the four arguments, and the arguments are as they were. The
  composition is named stage by stage (`proj0` … `out`), each stage a function of the stages it reads, so that the
  mathematics of each can be read separately.
-/
import proofs.«176268_j36455682408927_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## The stages of the composition -/

/-- The projected features: the node features times the weight matrix. -/
def proj0 (h : FVec F S8192x256 .f32) (W : FVec F S256x64 .f32) : FVec F S8192x64 .f32 :=
  Host.dotGeneral dot_S8192x256_S256x64_S8192x64_1_0_0_1_n_n none h W

/-- The logit of a node as a source: the projected features times rows 64 to 127 of the attention vector. -/
def proj1 (h : FVec F S8192x256 .f32) (W : FVec F S256x64 .f32) (a : FVec F S128x1 .f32) : FVec F S8192x1 .f32 :=
  Host.dotGeneral dot_S8192x64_S64x1_S8192x1_1_0_0_1_n_n none (proj0 h W) (extractStridedSlice S64x1 ![64, 0] a slices_S128x1_S64x1_64_0)

/-- The logit of a node as a neighbour: the projected features times rows 0 to 63 of the attention vector. -/
def proj2 (h : FVec F S8192x256 .f32) (W : FVec F S256x64 .f32) (a : FVec F S128x1 .f32) : FVec F S8192x1 .f32 :=
  Host.dotGeneral dot_S8192x64_S64x1_S8192x1_1_0_0_1_n_n none (proj0 h W) (extractStridedSlice S64x1 ![0, 0] a slices_S128x1_S64x1_0_0)

/-- The masked sums: the source's logit spread along rows plus the neighbour's spread along columns, kept where the
    adjacency entry is not zero and zero elsewhere. -/
def logits (adj : FVec F S8192x8192 .f32) (s1 s2 : FVec F S8192x1 .f32) : FVec F S8192x8192 .f32 :=
  select (cmpf .une adj (broadcastInDim S8192x8192 ![] bcast_S_S8192x8192 (constant S_ .f32 0x00000000#32)))
    (addf (broadcastInDim S8192x8192 ![0, 1] bcast_S8192x1_S8192x8192_0_1 s1)
      (broadcastInDim S8192x8192 ![0, 1] bcast_S1x8192_S8192x8192_0_1 (transpose S1x8192 [1, 0] s2 transposes_S8192x1_S1x8192_1_0)))
    (broadcastInDim S8192x8192 ![] bcast_S_S8192x8192 (constant S_ .f32 0x00000000#32))

/-- The leaky rectifier: an entry where it is at least zero, the slope times it elsewhere. -/
def scores (x : FVec F S8192x8192 .f32) : FVec F S8192x8192 .f32 :=
  select (cmpf .oge x (broadcastInDim S8192x8192 ![] bcast_S_S8192x8192 (constant S_ .f32 0x00000000#32))) x
    (mulf (broadcastInDim S8192x8192 ![] bcast_S_S8192x8192 (constant S_ .f32 0x3E4CCCCD#32)) x)

/-- Each row's maximum, from minus infinity, against minus infinity once more. -/
def rowMaxes (e : FVec F S8192x8192 .f32) : FVec F S8192 .f32 :=
  maximumf (broadcastInDim S8192 ![] bcast_S_S8192 (constant S_ .f32 0xFF800000#32))
    (Host.reduce FloatOps.maximumf e (constant S_ .f32 0xFF800000#32) reducesTo_S8192x8192_S8192_d1 h_S_)

/-- The exponentials of the scores less their row's maximum. -/
def expo (e : FVec F S8192x8192 .f32) : FVec F S8192x8192 .f32 :=
  Host.exp (subf e (broadcastInDim S8192x8192 ![0, 1] bcast_S8192x1_S8192x8192_0_1
    (broadcastInDim S8192x1 ![0] bcast_S8192_S8192x1_0 (rowMaxes e))))

/-- The softmax weights: every exponential over its row's sum. -/
def weights (p : FVec F S8192x8192 .f32) : FVec F S8192x8192 .f32 :=
  Host.divf p (broadcastInDim S8192x8192 ![0, 1] bcast_S8192x1_S8192x8192_0_1
    (broadcastInDim S8192x1 ![0] bcast_S8192_S8192x1_0
      (Host.reduceAdd p (constant S_ .f32 0x00000000#32) reducesTo_S8192x8192_S8192_d1 h_S_)))

/-- The weighted sums of the projected features. -/
def agg (wts : FVec F S8192x8192 .f32) (wh : FVec F S8192x64 .f32) : FVec F S8192x64 .f32 :=
  Host.dotGeneral dot_S8192x8192_S8192x64_S8192x64_1_0_0_1_n_n none wts wh

/-- The exponential linear unit: an entry where positive, elsewhere one times `exp y - 1` at the entry made zero
    where positive. -/
def elu (x : FVec F S8192x64 .f32) : FVec F S8192x64 .f32 :=
  select (cmpf .ogt x (broadcastInDim S8192x64 ![] bcast_S_S8192x64 (constant S_ .f32 0x00000000#32))) x
    (mulf (broadcastInDim S8192x64 ![] bcast_S_S8192x64 (constant S_ .f32 0x3F800000#32))
      (Host.expm1 (select (cmpf .ogt x (broadcastInDim S8192x64 ![] bcast_S_S8192x64 (constant S_ .f32 0x00000000#32)))
        (broadcastInDim S8192x64 ![] bcast_S_S8192x64 (id (constant S_ .f32 0x00000000#32))) x)))

/-- The whole composition, of the node features, the adjacency matrix, the weight matrix and the attention vector. -/
def out (h : FVec F S8192x256 .f32) (adj : FVec F S8192x8192 .f32) (W : FVec F S256x64 .f32) (a : FVec F S128x1 .f32) :
    FVec F S8192x64 .f32 :=
  elu (agg (weights (expo (scores (logits adj (proj1 h W a) (proj2 h W a))))) (proj0 h W))

/-! ## The operations and the run -/

/-- @main's 52 operations in order, the called functions' at their call sites over the calls' own buffers. -/
abbrev ops : List (HloOp τ sig (Elt F)) :=
  [
    binary main_arg0 main_arg2 main_v0 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    unary main_arg3 main_v1 ((extractStridedSlice S64x1 ![64, 0] · slices_S128x1_S64x1_64_0) : (⟨S128x1, .f32⟩ : BufTy).Contents (Elt F) → (⟨S64x1, .f32⟩ : BufTy).Contents (Elt F)),
    binary main_v0 main_v1 main_v2 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_arg3 main_v3 ((extractStridedSlice S64x1 ![0, 0] · slices_S128x1_S64x1_0_0) : (⟨S128x1, .f32⟩ : BufTy).Contents (Elt F) → (⟨S64x1, .f32⟩ : BufTy).Contents (Elt F)),
    binary main_v0 main_v3 main_v4 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    nullary main_cst (constant S_ .f32 0x00000000#32),
    unary main_cst main_v5 (broadcastInDim S8192x8192 ![] bcast_S_S8192x8192 : (⟨S_, .f32⟩ : BufTy).Contents (Elt F) → (⟨S8192x8192, .f32⟩ : BufTy).Contents (Elt F)),
    binary main_arg1 main_v5 main_v6 (cmpf .une : (⟨S8192x8192, .f32⟩ : BufTy).Contents (Elt F) → (⟨S8192x8192, .f32⟩ : BufTy).Contents (Elt F) → (⟨S8192x8192, .i1⟩ : BufTy).Contents (Elt F)),
    unary main_v4 main_v7 ((transpose S1x8192 [1, 0] · transposes_S8192x1_S1x8192_1_0) : (⟨S8192x1, .f32⟩ : BufTy).Contents (Elt F) → (⟨S1x8192, .f32⟩ : BufTy).Contents (Elt F)),
    unary main_v2 main_v8 (broadcastInDim S8192x8192 ![0, 1] bcast_S8192x1_S8192x8192_0_1 : (⟨S8192x1, .f32⟩ : BufTy).Contents (Elt F) → (⟨S8192x8192, .f32⟩ : BufTy).Contents (Elt F)),
    unary main_v7 main_v9 (broadcastInDim S8192x8192 ![0, 1] bcast_S1x8192_S8192x8192_0_1 : (⟨S1x8192, .f32⟩ : BufTy).Contents (Elt F) → (⟨S8192x8192, .f32⟩ : BufTy).Contents (Elt F)),
    binary main_v8 main_v9 main_v10 (addf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x00000000#32),
    TRef.unary (.of main_cst_0 : TRef sig ⟨S_, .f32⟩) main_call0.v0 (broadcastInDim S8192x8192 ![] bcast_S_S8192x8192),
    TRef.ternary (.of main_v6 : TRef sig ⟨S8192x8192, .i1⟩) (.of main_v10 : TRef sig ⟨S8192x8192, .f32⟩) main_call0.v0 main_call0.v1 select,
    nullary main_cst_1 (constant S_ .f32 0x00000000#32),
    unary main_cst_1 main_v12 (broadcastInDim S8192x8192 ![] bcast_S_S8192x8192 : (⟨S_, .f32⟩ : BufTy).Contents (Elt F) → (⟨S8192x8192, .f32⟩ : BufTy).Contents (Elt F)),
    binary main_v11 main_v12 main_v13 (cmpf .oge : (⟨S8192x8192, .f32⟩ : BufTy).Contents (Elt F) → (⟨S8192x8192, .f32⟩ : BufTy).Contents (Elt F) → (⟨S8192x8192, .i1⟩ : BufTy).Contents (Elt F)),
    nullary main_cst_2 (constant S_ .f32 0x3E4CCCCD#32),
    unary main_cst_2 main_v14 (broadcastInDim S8192x8192 ![] bcast_S_S8192x8192 : (⟨S_, .f32⟩ : BufTy).Contents (Elt F) → (⟨S8192x8192, .f32⟩ : BufTy).Contents (Elt F)),
    binary main_v14 main_v11 main_v15 (mulf : (⟨S8192x8192, .f32⟩ : BufTy).Contents (Elt F) → (⟨S8192x8192, .f32⟩ : BufTy).Contents (Elt F) → (⟨S8192x8192, .f32⟩ : BufTy).Contents (Elt F)),
    TRef.ternary (.of main_v13 : TRef sig ⟨S8192x8192, .i1⟩) (.of main_v11 : TRef sig ⟨S8192x8192, .f32⟩) (.of main_v15 : TRef sig ⟨S8192x8192, .f32⟩) main_call1.v0 select,
    nullary main_cst_3 (constant S_ .f32 0xFF800000#32),
    binary main_v16 main_cst_3 main_v17 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_4 (constant S_ .f32 0xFF800000#32),
    unary main_cst_4 main_v18 (broadcastInDim S8192 ![] bcast_S_S8192 : (⟨S_, .f32⟩ : BufTy).Contents (Elt F) → (⟨S8192, .f32⟩ : BufTy).Contents (Elt F)),
    binary main_v18 main_v17 main_v19 (maximumf : (⟨S8192, .f32⟩ : BufTy).Contents (Elt F) → (⟨S8192, .f32⟩ : BufTy).Contents (Elt F) → (⟨S8192, .f32⟩ : BufTy).Contents (Elt F)),
    unary main_v19 main_v20 (broadcastInDim S8192x1 ![0] bcast_S8192_S8192x1_0 : (⟨S8192, .f32⟩ : BufTy).Contents (Elt F) → (⟨S8192x1, .f32⟩ : BufTy).Contents (Elt F)),
    unary main_v20 main_v21 (broadcastInDim S8192x8192 ![0, 1] bcast_S8192x1_S8192x8192_0_1 : (⟨S8192x1, .f32⟩ : BufTy).Contents (Elt F) → (⟨S8192x8192, .f32⟩ : BufTy).Contents (Elt F)),
    binary main_v16 main_v21 main_v22 (subf : (⟨S8192x8192, .f32⟩ : BufTy).Contents (Elt F) → (⟨S8192x8192, .f32⟩ : BufTy).Contents (Elt F) → (⟨S8192x8192, .f32⟩ : BufTy).Contents (Elt F)),
    unary main_v22 main_v23 (Host.exp : (⟨S8192x8192, .f32⟩ : BufTy).Contents (Elt F) → (⟨S8192x8192, .f32⟩ : BufTy).Contents (Elt F)),
    nullary main_cst_5 (constant S_ .f32 0x00000000#32),
    binary main_v23 main_cst_5 main_v24 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v24 main_v25 (broadcastInDim S8192x1 ![0] bcast_S8192_S8192x1_0 : (⟨S8192, .f32⟩ : BufTy).Contents (Elt F) → (⟨S8192x1, .f32⟩ : BufTy).Contents (Elt F)),
    unary main_v25 main_v26 (broadcastInDim S8192x8192 ![0, 1] bcast_S8192x1_S8192x8192_0_1 : (⟨S8192x1, .f32⟩ : BufTy).Contents (Elt F) → (⟨S8192x8192, .f32⟩ : BufTy).Contents (Elt F)),
    binary main_v23 main_v26 main_v27 (Host.divf : (⟨S8192x8192, .f32⟩ : BufTy).Contents (Elt F) → (⟨S8192x8192, .f32⟩ : BufTy).Contents (Elt F) → (⟨S8192x8192, .f32⟩ : BufTy).Contents (Elt F)),
    binary main_v27 main_v0 main_v28 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    TRef.nullary main_call2.cst (constant S_ .f32 0x00000000#32),
    TRef.unary main_call2.cst main_call2.v0 (broadcastInDim S8192x64 ![] bcast_S_S8192x64),
    TRef.binary (.of main_v28 : TRef sig ⟨S8192x64, .f32⟩) main_call2.v0 main_call2.v1 (cmpf .ogt),
    TRef.nullary main_call2.cst_0 (constant S_ .f32 0x00000000#32),
    TRef.unary main_call2.cst_0 main_call2.v2 (broadcastInDim S8192x64 ![] bcast_S_S8192x64),
    TRef.binary (.of main_v28 : TRef sig ⟨S8192x64, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x64 ![] bcast_S_S8192x64),
    TRef.ternary main_call2.v3 main_call2.call0.v1 (.of main_v28 : TRef sig ⟨S8192x64, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S8192x64 ![] bcast_S_S8192x64),
    TRef.binary main_call2.v6 main_call2.v5 main_call2.v7 mulf,
    TRef.ternary main_call2.v1 (.of main_v28 : TRef sig ⟨S8192x64, .f32⟩) main_call2.v7 main_call2.call1.v0 select ]

-- fifty-two binds re-associated: the rewriting under the chain recurses once per statement
set_option maxRecDepth 2048 in
/-- @main is that straight line: the functions' definitions unfolded at their calls, both sides are one chain of steps
    once sequencing is reassociated. -/
theorem main_eq (c : Dev nD) : main (F := F) c = seq ops := by
  simp only [main, fn_where.body, fn_where_0.body, fn_where_1.body, fn_where_2.body, fn_elu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., unary_bufs_sub .., binary_bufs_sub .., unary_bufs_sub .., binary_bufs_sub .., nullary_bufs_sub ..,
    unary_bufs_sub .., binary_bufs_sub .., unary_bufs_sub .., unary_bufs_sub .., unary_bufs_sub .., binary_bufs_sub ..,
    nullary_bufs_sub .., unary_bufs_sub .., ternary_bufs_sub .., nullary_bufs_sub .., unary_bufs_sub .., binary_bufs_sub ..,
    nullary_bufs_sub .., unary_bufs_sub .., binary_bufs_sub .., ternary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub ..⟩

/-- What the result buffer holds after the line, from any contents: the composition of the four arguments' contents. -/
theorem out_eq (V : Valuation τ sig (Elt F)) :
    after ops V (main_v29 : DevRef τ sig)
      = out (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, for any float values, from any memory with zero counters: every weakly fair execution of @main
    terminates with the result at the composition of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v29).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The whole-row program's result IS the layer by the softmax of whole rows. The run (RefRun) leaves the result buffer at
  the composition of the program's stages; here each stage is read at one index — the masked sum and the rectifier at an
  entry `(u, i)`, the row maximum and the row sum at a row `u`, the weighted sum of the features at `(u, f)`, the
  exponential linear unit at an entry — and the readings are put together: entry `(u, f)` of the composition is
  `refRow` of row `u`'s scores and column `f` of the projected features. The three projections the program takes first
  stay as they are (`Proj.wh`, `Proj.w1`, `Proj.w2`): no matrix product of theirs is opened.
-/
import proofs.«176268_j36455682408927_2_alg».proof.Proof.RefRun
import proofs.«176268_j36455682408927_2_alg».proof.Proof.AttnRow
import Idealize.ShloMosaic.PureOps.Ideal.Laws
import Idealize.ShloMosaic.Lib.ValueIdx
import Idealize.ShloMosaic.Lib.ValueLayout
import Idealize.ShloMosaic.Lib.StackMember

noncomputable section

open scoped BigOperators

namespace Cert.ReferenceIdeal.Proj

open Idealize.ShloMosaic Cert.ReferenceIdeal
open Cert.ReferenceIdeal.Facts₀ Cert.ReferenceIdeal.Facts

/-- The projected features `h · W`. -/
def wh (h : FVec Ideal S8192x256 .f32) (W : FVec Ideal S256x64 .f32) : FVec Ideal S8192x64 .f32 :=
  Host.dotGeneral dot_S8192x256_S256x64_S8192x64_1_0_0_1_n_n none h W

/-- The logit of a node as a source: its features times rows 64 to 127 of the attention vector. -/
def w1 (h : FVec Ideal S8192x256 .f32) (W : FVec Ideal S256x64 .f32) (a : FVec Ideal S128x1 .f32) : FVec Ideal S8192x1 .f32 :=
  Host.dotGeneral dot_S8192x64_S64x1_S8192x1_1_0_0_1_n_n none (wh h W) (extractStridedSlice S64x1 ![64, 0] a slices_S128x1_S64x1_64_0)

/-- The logit of a node as a neighbour: its features times rows 0 to 63 of the attention vector. -/
def w2 (h : FVec Ideal S8192x256 .f32) (W : FVec Ideal S256x64 .f32) (a : FVec Ideal S128x1 .f32) : FVec Ideal S8192x1 .f32 :=
  Host.dotGeneral dot_S8192x64_S64x1_S8192x1_1_0_0_1_n_n none (wh h W) (extractStridedSlice S64x1 ![0, 0] a slices_S128x1_S64x1_0_0)

end Cert.ReferenceIdeal.Proj

namespace Cert.ReferenceIdeal.RefValue

open Idealize.ShloMosaic Idealize.ShloMosaic.ValueIdx Idealize.ShloMosaic.TcCoe Idealize.SL.Sem
open Cert.ReferenceIdeal Cert.ReferenceIdeal.RefRun Cert.Attn
open Cert.ReferenceIdeal.Facts₀ Cert.ReferenceIdeal.Facts

/-! ## The layout operations at an index -/

/-- A scalar constant spread over any shape reads the constant's value everywhere. -/
theorem splat_apply {t : Shape} (h : S_.BroadcastsInDim t (![] : Fin 0 → Fin t.rank)) (b : BitVec 32) (j : t.Idx) :
    broadcastInDim t ![] h (constant (F := Ideal) S_ .f32 b) j = Ideal.ofBits .f32 b := rfl

/-- A column spread along the rows reads, at `(u, i)`, the column's entry `u`. -/
theorem col_apply {α : Type} (x : S8192x1.Idx → α) (u i : Fin 8192) :
    broadcastInDim S8192x8192 ![0, 1] bcast_S8192x1_S8192x8192_0_1 x (ix2 u i) = x (ix2 u (0 : Fin 1)) :=
  broadcastInDim_apply _ _ x _ _ fun a => match a with | ⟨0, _⟩ => rfl | ⟨1, _⟩ => rfl

/-- A column laid as a row and spread along the columns reads, at `(u, i)`, the column's entry `i`. -/
theorem row_apply {α : Type} (x : S8192x1.Idx → α) (u i : Fin 8192) :
    broadcastInDim S8192x8192 ![0, 1] bcast_S1x8192_S8192x8192_0_1
        (transpose S1x8192 [1, 0] x transposes_S8192x1_S1x8192_1_0) (ix2 u i) = x (ix2 i (0 : Fin 1)) :=
  (broadcastInDim_apply _ _ _ _ (ix2 (0 : Fin 1) i) fun a => match a with | ⟨0, _⟩ => rfl | ⟨1, _⟩ => rfl).trans
    (transpose_ix2_apply x _ (0 : Fin 1) i)

/-- A vector made a column and spread along the rows reads, at `(u, i)`, the vector's entry `u`. -/
theorem vec_apply {α : Type} (v : S8192.Idx → α) (u i : Fin 8192) :
    broadcastInDim S8192x8192 ![0, 1] bcast_S8192x1_S8192x8192_0_1
        (broadcastInDim S8192x1 ![0] bcast_S8192_S8192x1_0 v) (ix2 u i) = v (ix1 u) :=
  (col_apply _ u i).trans (broadcastInDim_apply _ _ v _ (ix1 u) fun a => match a with | ⟨0, _⟩ => rfl)

/-! ## The host's one-operand and two-operand operations at an index -/

theorem hostExp_apply {s : Shape} (x : FVec Ideal s .f32) (i : s.Idx) : Host.exp x i = Ideal.exp (x i) := rfl
theorem hostDivf_apply {s : Shape} (a b : FVec Ideal s .f32) (i : s.Idx) : Host.divf a b i = Ideal.div (a i) (b i) := rfl

/-! ## The stages at an index -/

/-- The masked sum at `(u, i)`. -/
theorem logits_apply (adj : FVec Ideal S8192x8192 .f32) (s1 s2 : FVec Ideal S8192x1 .f32) (u i : Fin 8192) :
    logits adj s1 s2 (ix2 u i) = masked (adj (ix2 u i)) (s1 (ix2 u (0 : Fin 1))) (s2 (ix2 i (0 : Fin 1))) := by
  unfold logits masked
  rw [select_apply, cmpf_apply, addf_apply, splat_apply, col_apply, row_apply]
  rfl

/-- The rectifier at an entry. -/
theorem scores_apply (x : FVec Ideal S8192x8192 .f32) (j : S8192x8192.Idx) :
    scores x j = Scalar.select (Ideal.cmp .oge (x j) zeroW) (x j) (slope * x j) := rfl

/-- The score at `(u, i)`. -/
theorem score_apply (adj : FVec Ideal S8192x8192 .f32) (s1 s2 : FVec Ideal S8192x1 .f32) (u i : Fin 8192) :
    scores (logits adj s1 s2) (ix2 u i) = score (adj (ix2 u i)) (s1 (ix2 u (0 : Fin 1))) (s2 (ix2 i (0 : Fin 1))) := by
  rw [scores_apply, logits_apply]
  rfl

/-- Dropping the second axis of a matrix leaves its rows. -/
theorem reduces_d1 : S8192x8192.Reduces [1] S8192 := by decide

/-- Row `u` with column `k` put back is `(u, k)`. -/
theorem lift_eq (u : Fin 8192) (k : Fin 8192) : reduces_d1.lift (ix1 u) k = ix2 u k := by
  funext a
  match a with
  | ⟨0, _⟩ => exact Fin.ext rfl
  | ⟨1, _⟩ => exact Fin.ext rfl

/-- A row's maximum: the fold of `max` from minus infinity over the row, against minus infinity once more. -/
theorem rowMaxes_apply (e : FVec Ideal S8192x8192 .f32) (u : Fin 8192) :
    rowMaxes e (ix1 u) = max negInf ((Finset.univ : Finset (Fin 8192)).fold max negInf fun i => e (ix2 u i)) := by
  unfold rowMaxes
  rw [maximumf_apply, splat_apply,
    Host.reduce_eq_fold_single FloatOps.maximumf e _ reducesTo_S8192x8192_S8192_d1 reduces_d1 h_S_ (ix1 u)]
  have hf : (e ∘ reduces_d1.lift (ix1 u)) = fun i : Fin 8192 => e (ix2 u i) := funext fun k => congrArg e (lift_eq u k)
  rw [hf]
  rfl

/-- An exponential at `(u, i)`: of the entry less its row's maximum. -/
theorem expo_apply (e : FVec Ideal S8192x8192 .f32) (u i : Fin 8192) :
    expo e (ix2 u i) = Ideal.exp (e (ix2 u i) - rowMaxes e (ix1 u)) := by
  unfold expo
  rw [hostExp_apply, subf_apply, vec_apply]

/-- A row's sum, from the zero word. -/
theorem rowSum_apply (p : FVec Ideal S8192x8192 .f32) (u : Fin 8192) :
    Host.reduceAdd p (constant S_ .f32 0x00000000#32) reducesTo_S8192x8192_S8192_d1 h_S_ (ix1 u)
      = zeroW + ∑ k : Fin 8192, p (ix2 u k) := by
  show Ideal.hostReduceAdd reducesTo_S8192x8192_S8192_d1 p (Ideal.ofBits .f32 0x00000000#32) (ix1 u) = _
  rw [Ideal.hostReduceAdd_single _ reduces_d1]
  exact congrArg (zeroW + ·) (Fintype.sum_congr _ _ fun k => congrArg p (lift_eq u k))

/-- A weight at `(u, i)`: the entry over its row's sum. -/
theorem weights_apply (p : FVec Ideal S8192x8192 .f32) (u i : Fin 8192) :
    weights p (ix2 u i) = Ideal.div (p (ix2 u i)) (zeroW + ∑ k : Fin 8192, p (ix2 u k)) := by
  unfold weights
  rw [hostDivf_apply, vec_apply, rowSum_apply]

/-- The weighted sum at `(u, f)`: over the nodes, the weight times the node's feature. -/
theorem agg_apply (wts : FVec Ideal S8192x8192 .f32) (wh : FVec Ideal S8192x64 .f32) (u : Fin 8192) (f : Fin 64) :
    agg wts wh (ix2 u f) = ∑ k : Fin 8192, wts (ix2 u k) * wh (ix2 k f) :=
  StackMember.dotGeneral_plain_apply (m := 8192) (n := 64) (k := 8192) none wts wh u f

/-- The exponential linear unit at an entry. -/
theorem elu_apply (x : FVec Ideal S8192x64 .f32) (j : S8192x64.Idx) : elu x j = eluR (x j) := rfl

/-! ## Rows as functions of a natural number -/

/-- Below its length a family read as a row gives its entry back. -/
theorem natRow_val {n : ℕ} (x : Fin n → EReal) (i : Fin n) : natRow x i.val = x i := by
  unfold natRow
  rw [dif_pos i.isLt]

theorem scoreRow_val (adj : SNN.Idx → EReal) (s1 s2 : SN1.Idx → EReal) (u k : Fin 8192) :
    scoreRow adj s1 s2 u k.val = score (adj (ix2 u k)) (s1 (ix2 u (0 : Fin 1))) (s2 (ix2 k (0 : Fin 1))) :=
  natRow_val _ k

theorem featCol_val (wh : SNF.Idx → EReal) (f : Fin 64) (k : Fin 8192) : featCol wh f k.val = wh (ix2 k f) :=
  natRow_val _ k

/-! ## The composition is the layer -/

/-- Entry `(u, f)` of the composition over any two columns of logits and any features. -/
theorem row_eq (adj : FVec Ideal S8192x8192 .f32) (s1 s2 : FVec Ideal S8192x1 .f32) (wh : FVec Ideal S8192x64 .f32)
    (u : Fin 8192) (f : Fin 64) :
    elu (agg (weights (expo (scores (logits adj s1 s2)))) wh) (ix2 u f)
      = refRow 8192 (scoreRow adj s1 s2 u) (featCol wh f) := by
  have hE : ∀ k : Fin 8192, scores (logits adj s1 s2) (ix2 u k) = scoreRow adj s1 s2 u k.val :=
    fun k => (score_apply adj s1 s2 u k).trans (scoreRow_val adj s1 s2 u k).symm
  have hM : rowMaxes (scores (logits adj s1 s2)) (ix1 u) = rowMax 8192 (scoreRow adj s1 s2 u) := by
    rw [rowMaxes_apply]
    unfold rowMax
    simp only [hE]
  have hX : ∀ k : Fin 8192, expo (scores (logits adj s1 s2)) (ix2 u k)
      = Ideal.exp (scoreRow adj s1 s2 u k.val - rowMax 8192 (scoreRow adj s1 s2 u)) :=
    fun k => by rw [expo_apply, hE, hM]
  rw [elu_apply, agg_apply]
  unfold refRow
  refine congrArg eluR (Finset.sum_congr rfl fun k _ => ?_)
  rw [weights_apply, featCol_val]
  simp only [hX]

/-- The composition of the four arguments is the layer by the softmax of whole rows, over the three projections. -/
theorem out_eq (h : FVec Ideal S8192x256 .f32) (adj : FVec Ideal S8192x8192 .f32) (W : FVec Ideal S256x64 .f32)
    (a : FVec Ideal S128x1 .f32) :
    RefRun.out h adj W a = viaSoftmax adj (Proj.w1 h W a) (Proj.w2 h W a) (Proj.wh h W) := by
  funext j
  obtain ⟨u, f, rfl⟩ : ∃ (u : Fin 8192) (f : Fin 64), j = ix2 u f := ⟨j 0, j 1, eq_ix2 j⟩
  exact row_eq adj (proj1 h W a) (proj2 h W a) (proj0 h W) u f

/-- At the ideal values, on every device, from any memory with zero counters: every weakly fair execution of @main
    terminates with the result buffer at the layer by the softmax of whole rows and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29)
        = viaSoftmax (m ((c.tc : Thread nD τ).loc main_arg1))
            (Proj.w1 (m ((c.tc : Thread nD τ).loc main_arg0)) (m ((c.tc : Thread nD τ).loc main_arg2)) (m ((c.tc : Thread nD τ).loc main_arg3)))
            (Proj.w2 (m ((c.tc : Thread nD τ).loc main_arg0)) (m ((c.tc : Thread nD τ).loc main_arg2)) (m ((c.tc : Thread nD τ).loc main_arg3)))
            (Proj.wh (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (out_eq _ _ _ _), (h c).2⟩) (RefRun.run m ρ)

end Cert.ReferenceIdeal.RefValue

end
-- ==== Proof.AttnRowLaw.lean ====
/-
  The row mathematics of graph attention: the streaming pass over a row in blocks and the softmax of the whole row
  give the same value, at the extended reals, for rows of finite reals.

  A row of scores `E` and a feature column `W` are coerced real rows `e`, `w`. For a real shift `c` write
  `den c N = ∑_{i<N} exp (e i - c)` and `num c N = ∑_{i<N} exp (e i - c) * w i`. After `k ≥ 1` blocks of `b` columns the
  streaming pass carries `(c, den c (b k), num c (b k))` for SOME real `c` (which real does not matter), because changing
  the shift from `c` to `c'` multiplies both sums by `exp (c - c')`; the same fact shows that the quotient `num / den`
  does not depend on the shift, and at the row's maximum it is the softmax-weighted sum.
-/
import proofs.«176268_j36455682408927_2_alg».proof.Proof.AttnRow
import Idealize.ShloMosaic.PureOps.Ideal.Laws
import Mathlib.Tactic

noncomputable section

open scoped BigOperators

namespace Cert.Attn

open Idealize.ShloMosaic

/-! ### The four words -/

theorem negInf_eq : negInf = ⊥ := by simp [negInf, Ideal.ofBits, Ideal.ieee]
theorem zeroW_eq : zeroW = 0 := Ideal.ofBits_zero_f32
theorem oneW_eq : oneW = 1 := by simp [oneW, Ideal.ofBits, Ideal.ieee, -EReal.coe_mul]; norm_num
theorem slope_real : ∃ r : ℝ, slope = (r : EReal) := by
  simp [slope, Ideal.ofBits, Ideal.ieee, -EReal.coe_mul]

/-! ### Finite sums and maxima of reals inside the extended reals -/

/-- The coercion of the reals commutes with `max`. -/
theorem coe_max' (a b : ℝ) : ((max a b : ℝ) : EReal) = max (a : EReal) (b : EReal) :=
  EReal.coe_strictMono.monotone.map_max

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from the bottom over a finite family of reals is the bottom (only for the empty family) or a real. -/
theorem fold_max_cases {ι : Type} (f : ι → ℝ) (s : Finset ι) :
    (s = ∅ ∧ s.fold max (⊥ : EReal) (fun i => (f i : EReal)) = ⊥)
      ∨ ∃ r : ℝ, s.fold max (⊥ : EReal) (fun i => (f i : EReal)) = (r : EReal) := by
  classical
  induction s using Finset.induction_on with
  | empty => exact Or.inl ⟨rfl, Finset.fold_empty⟩
  | insert a s ha ih =>
    refine Or.inr ?_
    rw [Finset.fold_insert ha]
    rcases ih with ⟨_, h⟩ | ⟨r, h⟩
    · rw [h]; exact ⟨f a, max_bot_right _⟩
    · rw [h]; exact ⟨max (f a) r, (coe_max' _ _).symm⟩

/-- Over a nonempty index range it is a real. -/
theorem foldMax_real (n : ℕ) (hn : 0 < n) (f : Fin n → ℝ) :
    ∃ r : ℝ, (Finset.univ : Finset (Fin n)).fold max negInf (fun j => (f j : EReal)) = (r : EReal) := by
  rw [negInf_eq]
  rcases fold_max_cases f Finset.univ with ⟨h, _⟩ | h
  · haveI : Nonempty (Fin n) := ⟨⟨0, hn⟩⟩
    exact absurd h Finset.univ_nonempty.ne_empty
  · exact h

theorem exp_coe_sub (x c : ℝ) : Ideal.exp ((x : EReal) - (c : EReal)) = ((Real.exp (x - c) : ℝ) : EReal) := by
  rw [← EReal.coe_sub]; rfl

/-- Division of a real by a nonzero real is the real quotient. -/
theorem div_real (x y : ℝ) (hy : y ≠ 0) : Ideal.div (x : EReal) (y : EReal) = ((x / y : ℝ) : EReal) := by
  rw [Ideal.div_coe hy, ← EReal.coe_mul, mul_one_div]

/-! ### The two sums of a real row, at a shift -/

/-- The denominator of the first `N` columns at shift `c`. -/
def den (e : ℕ → ℝ) (c : ℝ) (N : ℕ) : ℝ := ∑ i ∈ Finset.range N, Real.exp (e i - c)
/-- The numerator of the first `N` columns at shift `c`. -/
def num (e w : ℕ → ℝ) (c : ℝ) (N : ℕ) : ℝ := ∑ i ∈ Finset.range N, Real.exp (e i - c) * w i

theorem den_shift (e : ℕ → ℝ) (c c' : ℝ) (N : ℕ) : Real.exp (c - c') * den e c N = den e c' N := by
  unfold den
  rw [Finset.mul_sum]
  refine Finset.sum_congr rfl fun i _ => ?_
  rw [← Real.exp_add]; congr 1; ring

theorem num_shift (e w : ℕ → ℝ) (c c' : ℝ) (N : ℕ) : Real.exp (c - c') * num e w c N = num e w c' N := by
  unfold num
  rw [Finset.mul_sum]
  refine Finset.sum_congr rfl fun i _ => ?_
  rw [← mul_assoc, ← Real.exp_add]; congr 2; ring

theorem den_pos (e : ℕ → ℝ) (c : ℝ) {N : ℕ} (hN : 0 < N) : 0 < den e c N :=
  Finset.sum_pos (fun i _ => Real.exp_pos _) ⟨0, Finset.mem_range.2 hN⟩

theorem den_block (e : ℕ → ℝ) (c : ℝ) (b k : ℕ) :
    den e c (b * k) + ∑ j : Fin b, Real.exp (e (b * k + j.val) - c) = den e c (b * (k + 1)) := by
  unfold den
  rw [mul_add, mul_one, Finset.sum_range_add, Fin.sum_univ_eq_sum_range (fun j => Real.exp (e (b * k + j) - c))]

theorem num_block (e w : ℕ → ℝ) (c : ℝ) (b k : ℕ) :
    num e w c (b * k) + ∑ j : Fin b, Real.exp (e (b * k + j.val) - c) * w (b * k + j.val) = num e w c (b * (k + 1)) := by
  unfold num
  rw [mul_add, mul_one, Finset.sum_range_add,
    Fin.sum_univ_eq_sum_range (fun j => Real.exp (e (b * k + j) - c) * w (b * k + j))]

/-- The quotient of the two sums does not depend on the shift; at shift `M` it is the weighted sum with the
    normalised exponentials as weights. -/
theorem quot_shift (e w : ℕ → ℝ) (c M : ℝ) (N : ℕ) :
    num e w c N / den e c N = ∑ i ∈ Finset.range N, Real.exp (e i - M) / den e M N * w i := by
  rw [← den_shift e M c N, ← num_shift e w M c N, mul_div_mul_left _ _ (Real.exp_pos _).ne']
  unfold num
  rw [Finset.sum_div]
  refine Finset.sum_congr rfl fun i _ => ?_
  ring

/-! ### The streaming pass -/

/-- One block, with the new maximum named. -/
theorem step_eq (b : ℕ) (E W : ℕ → EReal) (k : ℕ) (m L A M : EReal)
    (hM : max m ((Finset.univ : Finset (Fin b)).fold max negInf fun j => E (b * k + j.val)) = M) :
    step b E W k (m, L, A)
      = (M, Ideal.exp (m - M) * L + ∑ j : Fin b, Ideal.exp (E (b * k + j.val) - M),
          Ideal.exp (m - M) * A + ∑ j : Fin b, Ideal.exp (E (b * k + j.val) - M) * W (b * k + j.val)) := by
  subst hM; rfl

/-- One block on real rows: if the carried maximum is the bottom or a real and the carried sums, rescaled to any
    real shift, are the two sums of the columns so far at that shift, then after the block the triple is a real shift
    with the two sums of the columns so far at it. -/
theorem step_real (b : ℕ) (hb : 0 < b) (e w : ℕ → ℝ) (k : ℕ) (m L A : EReal)
    (hm : m = ⊥ ∨ ∃ c : ℝ, m = (c : EReal))
    (hL : ∀ c' : ℝ, Ideal.exp (m - (c' : EReal)) * L = ((den e c' (b * k) : ℝ) : EReal))
    (hA : ∀ c' : ℝ, Ideal.exp (m - (c' : EReal)) * A = ((num e w c' (b * k) : ℝ) : EReal)) :
    ∃ c' : ℝ, step b (fun i => (e i : EReal)) (fun i => (w i : EReal)) k (m, L, A)
      = ((c' : EReal), ((den e c' (b * (k + 1)) : ℝ) : EReal), ((num e w c' (b * (k + 1)) : ℝ) : EReal)) := by
  obtain ⟨r, hr⟩ := foldMax_real b hb (fun j => e (b * k + j.val))
  have hc : ∃ c' : ℝ, max m (r : EReal) = (c' : EReal) := by
    rcases hm with rfl | ⟨c, rfl⟩
    · exact ⟨r, max_bot_left _⟩
    · exact ⟨max c r, (coe_max' c r).symm⟩
  obtain ⟨c', hc'⟩ := hc
  refine ⟨c', ?_⟩
  have h1 : ∑ j : Fin b, Ideal.exp (((e (b * k + j.val) : ℝ) : EReal) - (c' : EReal))
      = ((∑ j : Fin b, Real.exp (e (b * k + j.val) - c') : ℝ) : EReal) := by
    rw [coe_sum]; exact Finset.sum_congr rfl fun j _ => exp_coe_sub _ _
  have h2 : ∑ j : Fin b, Ideal.exp (((e (b * k + j.val) : ℝ) : EReal) - (c' : EReal)) * ((w (b * k + j.val) : ℝ) : EReal)
      = ((∑ j : Fin b, Real.exp (e (b * k + j.val) - c') * w (b * k + j.val) : ℝ) : EReal) := by
    rw [coe_sum]; exact Finset.sum_congr rfl fun j _ => by rw [exp_coe_sub, EReal.coe_mul]
  refine (step_eq b _ _ k m L A (c' : EReal) ((congrArg (max m) hr).trans hc')).trans ?_
  show ((c' : EReal), Ideal.exp (m - (c' : EReal)) * L + ∑ j : Fin b, Ideal.exp (((e (b * k + j.val) : ℝ) : EReal) - (c' : EReal)),
      Ideal.exp (m - (c' : EReal)) * A
        + ∑ j : Fin b, Ideal.exp (((e (b * k + j.val) : ℝ) : EReal) - (c' : EReal)) * ((w (b * k + j.val) : ℝ) : EReal)) = _
  rw [hL c', hA c', h1, h2, ← EReal.coe_add, ← EReal.coe_add, den_block, num_block]

/-- After at least one block the carried triple is a real shift with the two sums of the columns so far at it. -/
theorem state_real (b : ℕ) (hb : 0 < b) (e w : ℕ → ℝ) (k : ℕ) :
    ∃ c : ℝ, state b (fun i => (e i : EReal)) (fun i => (w i : EReal)) (k + 1)
      = ((c : EReal), ((den e c (b * (k + 1)) : ℝ) : EReal), ((num e w c (b * (k + 1)) : ℝ) : EReal)) := by
  induction k with
  | zero =>
    show ∃ c : ℝ, step b _ _ 0 (negInf, zeroW, zeroW) = _
    rw [negInf_eq, zeroW_eq]
    exact step_real b hb e w 0 ⊥ 0 0 (Or.inl rfl) (fun c' => by simp [den]) (fun c' => by simp [num])
  | succ k ih =>
    obtain ⟨c, hc⟩ := ih
    show ∃ c' : ℝ, step b _ _ (k + 1) (state b _ _ (k + 1)) = _
    rw [hc]
    exact step_real b hb e w (k + 1) c _ _ (Or.inr ⟨c, rfl⟩)
      (fun c' => by rw [exp_coe_sub, ← EReal.coe_mul, den_shift])
      (fun c' => by rw [exp_coe_sub, ← EReal.coe_mul, num_shift])

/-! ### The two exponential linear units -/

theorem eluK_eq_eluR (x : EReal) : eluK x = eluR x := by
  unfold eluK eluR Scalar.select
  rw [oneW_eq]
  by_cases h : Ideal.cmp .ogt x zeroW = 1
  · simp only [if_pos h]
  · simp only [if_neg h, one_mul]

/-! ### The whole row -/

theorem kernelRow_real (b n : ℕ) (hb : 0 < b) (hn : 0 < n) (e w : ℕ → ℝ) :
    ∃ c : ℝ, kernelRow b n (fun i => (e i : EReal)) (fun i => (w i : EReal))
      = eluK ((num e w c (b * n) / den e c (b * n) : ℝ) : EReal) := by
  obtain ⟨k, rfl⟩ : ∃ k, n = k + 1 := ⟨n - 1, by omega⟩
  obtain ⟨c, hc⟩ := state_real b hb e w k
  refine ⟨c, ?_⟩
  unfold kernelRow
  rw [hc]
  show eluK (Ideal.div ((num e w c (b * (k + 1)) : ℝ) : EReal) ((den e c (b * (k + 1)) : ℝ) : EReal)) = _
  rw [div_real _ _ (den_pos e c (Nat.mul_pos hb hn)).ne']

theorem refRow_real (N : ℕ) (hN : 0 < N) (e w : ℕ → ℝ) :
    ∃ M : ℝ, refRow N (fun i => (e i : EReal)) (fun i => (w i : EReal))
      = eluR ((∑ i ∈ Finset.range N, Real.exp (e i - M) / den e M N * w i : ℝ) : EReal) := by
  obtain ⟨M, hM0⟩ := foldMax_real N hN (fun i => e i.val)
  have hM : rowMax N (fun i => (e i : EReal)) = (M : EReal) := by
    unfold rowMax
    refine (congrArg (max negInf) hM0).trans ?_
    rw [negInf_eq]; exact max_bot_left _
  refine ⟨M, ?_⟩
  have hd : zeroW + ∑ j : Fin N, Ideal.exp (((e j.val : ℝ) : EReal) - (M : EReal)) = ((den e M N : ℝ) : EReal) := by
    rw [zeroW_eq, zero_add, den, ← Fin.sum_univ_eq_sum_range (fun i => Real.exp (e i - M)), coe_sum]
    exact Finset.sum_congr rfl fun j _ => exp_coe_sub _ _
  unfold refRow
  rw [hM]
  show eluR (∑ i : Fin N, Ideal.div (Ideal.exp (((e i.val : ℝ) : EReal) - (M : EReal)))
      (zeroW + ∑ j : Fin N, Ideal.exp (((e j.val : ℝ) : EReal) - (M : EReal))) * ((w i.val : ℝ) : EReal)) = _
  rw [hd, ← Fin.sum_univ_eq_sum_range (fun i => Real.exp (e i - M) / den e M N * w i), coe_sum]
  refine congrArg eluR (Finset.sum_congr rfl fun i _ => ?_)
  rw [exp_coe_sub, div_real _ _ (den_pos e M hN).ne', EReal.coe_mul]

/-- The streaming pass over `n` blocks of `b` columns and the whole-row softmax of the `b * n` columns agree on rows
    of finite reals. -/
theorem kernelRow_eq_refRow (b n : ℕ) (hb : 0 < b) (hn : 0 < n) (E W : ℕ → EReal)
    (hE : ∀ i, ∃ r : ℝ, E i = (r : EReal)) (hW : ∀ i, ∃ r : ℝ, W i = (r : EReal)) :
    kernelRow b n E W = refRow (b * n) E W := by
  choose e he using hE
  choose w hw using hW
  obtain rfl : E = fun i => (e i : EReal) := funext he
  obtain rfl : W = fun i => (w i : EReal) := funext hw
  obtain ⟨c, hk⟩ := kernelRow_real b n hb hn e w
  obtain ⟨M, hr⟩ := refRow_real (b * n) (Nat.mul_pos hb hn) e w
  rw [hk, hr, eluK_eq_eluR, quot_shift e w c M]

/-! ### Scores and rows are real -/

theorem masked_real (a s1 s2 : EReal) (h1 : ∃ r : ℝ, s1 = (r : EReal)) (h2 : ∃ r : ℝ, s2 = (r : EReal)) :
    ∃ r : ℝ, masked a s1 s2 = (r : EReal) := by
  obtain ⟨r1, rfl⟩ := h1
  obtain ⟨r2, rfl⟩ := h2
  unfold masked Scalar.select
  split_ifs
  · exact ⟨r1 + r2, (EReal.coe_add _ _).symm⟩
  · exact ⟨0, by rw [zeroW_eq, EReal.coe_zero]⟩

theorem score_real (a s1 s2 : EReal) (h1 : ∃ r : ℝ, s1 = (r : EReal)) (h2 : ∃ r : ℝ, s2 = (r : EReal)) :
    ∃ r : ℝ, score a s1 s2 = (r : EReal) := by
  obtain ⟨t, ht⟩ := masked_real a s1 s2 h1 h2
  obtain ⟨sl, hsl⟩ := slope_real
  unfold score Scalar.select
  rw [ht, hsl]
  split_ifs
  · exact ⟨t, rfl⟩
  · exact ⟨sl * t, (EReal.coe_mul _ _).symm⟩

theorem natRow_real {n : ℕ} (x : Fin n → EReal) (h : ∀ i, ∃ r : ℝ, x i = (r : EReal)) :
    ∀ i, ∃ r : ℝ, natRow x i = (r : EReal) := by
  intro i
  unfold natRow
  split_ifs with hi
  · exact h _
  · exact ⟨0, EReal.coe_zero.symm⟩

/-- The layer by the streaming pass is the layer by whole-row softmax, on finite logits and features. -/
theorem viaOnline_eq_viaSoftmax (adj : SNN.Idx → EReal) (w1 w2 : SN1.Idx → EReal) (wh : SNF.Idx → EReal)
    (h1 : ∀ i, ∃ r : ℝ, w1 i = (r : EReal)) (h2 : ∀ i, ∃ r : ℝ, w2 i = (r : EReal))
    (hwh : ∀ i, ∃ r : ℝ, wh i = (r : EReal)) : viaOnline adj w1 w2 wh = viaSoftmax adj w1 w2 wh := by
  funext j
  have hs : ∀ i, ∃ r : ℝ, scoreRow adj w1 w2 (j 0) i = (r : EReal) :=
    natRow_real _ fun i => score_real _ _ _ (h1 _) (h2 _)
  have hf : ∀ i, ∃ r : ℝ, featCol wh (j 1) i = (r : EReal) := natRow_real _ fun i => hwh _
  exact kernelRow_eq_refRow 1024 8 (by norm_num) (by norm_num) _ _ hs hf

end Cert.Attn

end
-- ==== Proof.FiniteArgs.lean ====
/-
  Finiteness. The precondition says every float argument compares, in absolute value, strictly below +inf; read at the
  extended reals that makes every entry of the feature matrix h, the weight matrix W and the attention vector a a real
  number, and then every entry of the three host projections h · W, (h · W) · a[64:128] and (h · W) · a[0:64] is a real
  number too, being a finite sum of products of real numbers.
-/
import proofs.«176268_j36455682408927_2_alg».proof.Defs
import proofs.«176268_j36455682408927_2_alg».proof.Proof.Gen.KernelIdeal
import proofs.«176268_j36455682408927_2_alg».proof.Proof.Gen.Pre_finite_inputs
import proofs.«176268_j36455682408927_2_alg».proof.Proof.HostProj
import Idealize.ShloMosaic.Lib.ReduceAll
import Idealize.ShloMosaic.Lib.ValueIdx
import Idealize.ShloMosaic.PureOps.Ideal.Laws

noncomputable section

namespace Cert.KernelIdeal.Finite

open Idealize.ShloMosaic Idealize.SL.Sem Cert.KernelIdeal

/-- The index type of the rank-zero shape has one element. -/
instance : Subsingleton Cert.Pre_finite_inputs.S_.Idx := ⟨fun a b => funext fun d => d.elim0⟩

/-- A one-bit word made from a Boolean is the word one exactly when the Boolean is true. -/
theorem ofBool_eq_one (b : Bool) : BitVec.ofBool b = 1#1 ↔ b = true := by cases b <;> decide

/-- An extended real whose absolute value max x (-x) compares strictly below the word 0x7F800000 (which denotes +inf)
    is a real number: at +inf the absolute value is +inf, at -inf it is max (-inf) (+inf) = +inf as well. -/
theorem real_of_abs_lt (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have ht : Ideal.ofBits .f32 0x7F800000#32 = (⊤ : EReal) := by simp [Ideal.ofBits, Ideal.ieee]
  have h1 : Ideal.cmp .olt (max x (-x)) (Ideal.ofBits .f32 0x7F800000#32) = 1#1 := h
  rw [ht] at h1
  have h2 : max x (-x) < (⊤ : EReal) := by
    unfold Ideal.cmp at h1
    rw [ofBool_eq_one] at h1
    exact of_decide_eq_true h1
  induction x using EReal.rec with
  | bot => exact absurd h2 (by simp)
  | coe r => exact ⟨r, rfl⟩
  | top => exact absurd h2 (by simp)

/-- A finite sum of products of real numbers, taken in the extended reals, is a real number. -/
theorem sum_mul_real {ι : Type*} (s : Finset ι) (f g : ι → EReal)
    (hf : ∀ k, ∃ r : ℝ, f k = (r : EReal)) (hg : ∀ k, ∃ r : ℝ, g k = (r : EReal)) :
    ∃ r : ℝ, ∑ k ∈ s, f k * g k = (r : EReal) := by
  refine Finset.sum_induction _ (fun x : EReal => ∃ r : ℝ, x = (r : EReal)) ?_ ⟨0, by simp⟩ ?_
  · rintro a b ⟨ra, rfl⟩ ⟨rb, rfl⟩
    exact ⟨ra + rb, (EReal.coe_add ra rb).symm⟩
  · intro k _
    obtain ⟨a, ha⟩ := hf k
    obtain ⟨b, hb⟩ := hg k
    exact ⟨a * b, by rw [ha, hb, EReal.coe_mul]⟩

/-- A host dot_general of two arrays of real numbers is an array of real numbers: each entry is a finite sum of
    products of entries of the operands. -/
theorem dot_real {sl sr so : Shape} {φ₁ φ₂ : FTy} (d : DotDims sl sr so) (prec : Option ContractPrecision)
    (lhs : FVec Ideal sl φ₁) (rhs : FVec Ideal sr φ₂)
    (hl : ∀ i, ∃ r : ℝ, lhs i = (r : EReal)) (hr : ∀ i, ∃ r : ℝ, rhs i = (r : EReal)) (j : so.Idx) :
    ∃ r : ℝ, Host.dotGeneral (F := Ideal) d prec lhs rhs j = (r : EReal) := by
  have e : Host.dotGeneral (F := Ideal) d prec lhs rhs j = ∑ k : d.contr.Idx, lhs (d.lhsIdx j k) * rhs (d.rhsIdx j k) :=
    Ideal.dotGeneral_apply d prec .single lhs rhs j
  rw [e]
  exact sum_mul_real Finset.univ (fun k => lhs (d.lhsIdx j k)) (fun k => rhs (d.rhsIdx j k)) (fun k => hl _) (fun k => hr _)

/-- The three host projections of real arrays are real arrays. -/
theorem proj_real (h : FVec Ideal S8192x256 .f32) (W : FVec Ideal S256x64 .f32) (a : FVec Ideal S128x1 .f32)
    (hh : ∀ i, ∃ r : ℝ, h i = (r : EReal)) (hW : ∀ i, ∃ r : ℝ, W i = (r : EReal)) (ha : ∀ i, ∃ r : ℝ, a i = (r : EReal)) :
    (∀ i, ∃ r : ℝ, Proj.wh h W i = (r : EReal)) ∧ (∀ i, ∃ r : ℝ, Proj.w1 h W a i = (r : EReal))
      ∧ (∀ i, ∃ r : ℝ, Proj.w2 h W a i = (r : EReal)) := by
  have hwh : ∀ i, ∃ r : ℝ, Proj.wh h W i = (r : EReal) := fun i => dot_real _ none h W hh hW i
  refine ⟨hwh, fun i => ?_, fun i => ?_⟩
  · exact dot_real _ none (Proj.wh h W) _ hwh (fun j => ha _) i
  · exact dot_real _ none (Proj.wh h W) _ hwh (fun j => ha _) i

/-- The precondition read back: on every device the three float arguments the projections take are arrays of real
    numbers. The printed predicate is the conjunction of four whole-array conjunctions of |x| < +inf. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread _ _).loc Cert.KernelIdeal.main_arg0) i = (r : EReal))
      ∧ (∀ i, ∃ r : ℝ, m ((c.tc : Thread _ _).loc Cert.KernelIdeal.main_arg2) i = (r : EReal))
      ∧ (∀ i, ∃ r : ℝ, m ((c.tc : Thread _ _).loc Cert.KernelIdeal.main_arg3) i = (r : EReal)) := by
  have h := congrFun (hpre c) ValueIdx.ix0
  dsimp only [Cert.Pre_finite_inputs.fn, Cert.Pre_finite_inputs.fn_part1] at h
  obtain ⟨h012, h3⟩ := IntOp.andi_eq_one.1 h
  obtain ⟨h01, h2⟩ := IntOp.andi_eq_one.1 h012
  obtain ⟨h0, -⟩ := IntOp.andi_eq_one.1 h01
  refine ⟨fun i => ?_, fun i => ?_, fun i => ?_⟩
  · exact real_of_abs_lt _ (Host.reduce_andi_all _ _ _ _ _ h0 i)
  · exact real_of_abs_lt _ (Host.reduce_andi_all _ _ _ _ _ h2 i)
  · exact real_of_abs_lt _ (Host.reduce_andi_all _ _ _ _ _ h3 i)

end Cert.KernelIdeal.Finite

end
-- ==== Proof.lean ====
/-
  A graph-attention layer: two ways to one result.

  Both programs first project the node features, `Wh = h · W`, and take two columns of attention logits, `Wh` times the upper
  and the lower half of the attention vector. Node `u` scores node `i` by the sum of the source logit of `u` and the neighbour
  logit of `i` where the adjacency entry is not zero and by zero elsewhere, through a leaky rectifier; a row of scores
  becomes weights by a softmax; the weights average the projected features; an exponential linear unit finishes.

  The reference takes the softmax of each whole row: it subtracts the row's maximum, exponentiates, divides every term by
  the sum and only then multiplies by the features. The kernel streams each row in eight blocks of 1024 columns: it carries a
  running maximum `m`, a running denominator `l` and a running numerator `a`, rescales what it carries by `exp (m_old - m_new)` at
  every block, and divides `a` by `l` once, at the end of the row. On the extended reals the two agree when the inputs are
  finite: every score is then a real number, the running maximum is a real number from the first block on, rescaling by
  `exp (c - c')` turns `exp (e - c)` into `exp (e - c')` term by term, and a softmax does not depend on the real number it
  subtracts, because the common factor `exp (M - c)` cancels between numerator and denominator; dividing the weighted sum by
  the positive sum is dividing every weight (the row law). Before the first block the carried maximum is minus infinity,
  whose exponential is zero, and it multiplies the two zeros the row starts from. The two spellings of the exponential
  linear unit, `exp x - 1` and one times `expm1` of the argument made zero where positive, are one function.

  The modules: the row mathematics and its law; the reference's run and its result read entry by entry; for the kernel, what
  each grid point leaves in the three carried buffers, those contents read at an entry, the blocks as pieces of the arrays,
  the invariant over the grid points, and the result array from the eight writing points; finiteness of the inputs and of the
  three projections from the precondition.
-/
import proofs.«176268_j36455682408927_2_alg».proof.Defs
import proofs.«176268_j36455682408927_2_alg».proof.Proof.Gen.Kernel
import proofs.«176268_j36455682408927_2_alg».proof.Proof.Gen.Kernel.Skeleton
import proofs.«176268_j36455682408927_2_alg».proof.Proof.Gen.Kernel.Launch
import proofs.«176268_j36455682408927_2_alg».proof.Proof.Gen.Kernel.Points
import proofs.«176268_j36455682408927_2_alg».proof.Proof.Gen.Kernel.Frame
import proofs.«176268_j36455682408927_2_alg».proof.Proof.Gen.KernelIdeal
import proofs.«176268_j36455682408927_2_alg».proof.Proof.Gen.KernelIdeal.Skeleton
import proofs.«176268_j36455682408927_2_alg».proof.Proof.Gen.KernelIdeal.Launch
import proofs.«176268_j36455682408927_2_alg».proof.Proof.Gen.KernelIdeal.Points
import proofs.«176268_j36455682408927_2_alg».proof.Proof.Gen.KernelIdeal.Frame
import proofs.«176268_j36455682408927_2_alg».proof.Proof.Gen.KernelIdeal.Value
import proofs.«176268_j36455682408927_2_alg».proof.Proof.Gen.ReferenceIdeal
import proofs.«176268_j36455682408927_2_alg».proof.Proof.Gen.Pre_finite_inputs
import proofs.«176268_j36455682408927_2_alg».proof.Proof.KernelValue
import proofs.«176268_j36455682408927_2_alg».proof.Proof.RefValue
import proofs.«176268_j36455682408927_2_alg».proof.Proof.AttnRowLaw
import proofs.«176268_j36455682408927_2_alg».proof.Proof.FiniteArgs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.RefValue.run m ρ)

/-- From arguments that agree and are finite, the kernel ends with the streamed result, the reference with the softmax of
    whole rows, of the same adjacency matrix, logits and projected features; the row law makes them one array. -/
theorem algebraic : Cert.algebraic_KernelIdeal_ReferenceIdeal := by
  intro m ρ m' ρ' hpre hagree
  refine ⟨fun c => Cert.Attn.viaSoftmax (Cert.KernelIdeal.Blocks.adjA m c) (Cert.KernelIdeal.Blocks.w1A m c)
    (Cert.KernelIdeal.Blocks.w2A m c) (Cert.KernelIdeal.Blocks.whA m c), ?_, ?_⟩
  · refine (θ_run Cert.KernelIdeal.defs _ _).mono (fun r h c => ⟨(h c).1.trans ?_, (h c).2⟩) (Cert.KernelIdeal.Streamed.run m ρ)
    obtain ⟨hh, hW, ha⟩ := Cert.KernelIdeal.Finite.args_real m hpre c
    obtain ⟨p0, p1, p2⟩ := Cert.KernelIdeal.Finite.proj_real _ _ _ hh hW ha
    exact Cert.Attn.viaOnline_eq_viaSoftmax _ _ _ _ p1 p2 p0
  · refine (θ_run Cert.ReferenceIdeal.defs _ _).mono (fun r h c => ⟨(h c).1.trans ?_, (h c).2⟩) (Cert.ReferenceIdeal.RefValue.run m' ρ')
    rw [(hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
